-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x544x960 : Shape := ⟨4, ![8, 3, 544, 960]⟩
abbrev S8x27x544x960 : Shape := ⟨4, ![8, 27, 544, 960]⟩
abbrev S_ : Shape := ⟨0, ![]⟩

class Facts : Prop where
  bcast_S_S8x3x544x960 : S_.BroadcastsInDim S8x3x544x960 (![] : Fin 0 → Fin S8x3x544x960.rank)
  reducesTo_S8x3x544x960_S_d0_1_2_3 : S8x3x544x960.ReducesTo [0, 1, 2, 3] S_
  h_S_ : 0 < S_.numel
  bcast_S_S8x27x544x960 : S_.BroadcastsInDim S8x27x544x960 (![] : Fin 0 → Fin S8x27x544x960.rank)
  reducesTo_S8x27x544x960_S_d0_1_2_3 : S8x27x544x960.ReducesTo [0, 1, 2, 3] S_

variable [Facts]

def fn {F : FTy → Type} [FloatOps F] (main_arg0 : FVec F S8x3x544x960 .f32) (main_arg1 : FVec F S8x27x544x960 .f32) : IVec S_ 1 :=
  let main_v0 : FVec F S8x3x544x960 .f32 := Host.absf main_arg0
  let main_cst : FVec F S_ .f32 := constant S_ .f32 0x7F800000#32
  let main_v1 : FVec F S8x3x544x960 .f32 := broadcastInDim S8x3x544x960 ![] bcast_S_S8x3x544x960 main_cst
  let main_v2 : IVec S8x3x544x960 1 := cmpf .olt main_v0 main_v1
  let main_c : IVec S_ 1 := constantI S_ 1 1#1
  let main_v3 : IVec S_ 1 := (fun x v => Host.reduce IntOp.andi x v reducesTo_S8x3x544x960_S_d0_1_2_3 h_S_) main_v2 main_c
  let main_v4 : FVec F S8x27x544x960 .f32 := Host.absf main_arg1
  let main_cst_0 : FVec F S_ .f32 := constant S_ .f32 0x7F800000#32
  let main_v5 : FVec F S8x27x544x960 .f32 := broadcastInDim S8x27x544x960 ![] bcast_S_S8x27x544x960 main_cst_0
  let main_v6 : IVec S8x27x544x960 1 := cmpf .olt main_v4 main_v5
  let main_c_1 : IVec S_ 1 := constantI S_ 1 1#1
  let main_v7 : IVec S_ 1 := (fun x v => Host.reduce IntOp.andi x v reducesTo_S8x27x544x960_S_d0_1_2_3 h_S_) main_v6 main_c_1
  let main_v8 : IVec S_ 1 := andi main_v3 main_v7
  main_v8
-- ==== Kernel.lean ====
abbrev S8x3x544x960 : Shape := ⟨4, ![8, 3, 544, 960]⟩
abbrev S8x27x544x960 : Shape := ⟨4, ![8, 27, 544, 960]⟩
abbrev S8x1x544x960 : Shape := ⟨4, ![8, 1, 544, 960]⟩
abbrev S1x3x544x960 : Shape := ⟨4, ![1, 3, 544, 960]⟩
abbrev S1x27x32x960 : Shape := ⟨4, ![1, 27, 32, 960]⟩
abbrev S1x1x32x960 : Shape := ⟨4, ![1, 1, 32, 960]⟩
abbrev S3x546x962 : Shape := ⟨3, ![3, 546, 962]⟩
abbrev S3x544x960 : Shape := ⟨3, ![3, 544, 960]⟩
abbrev S3x34x962 : Shape := ⟨3, ![3, 34, 962]⟩
abbrev S32x960 : Shape := ⟨2, ![32, 960]⟩
abbrev S3x32x960 : Shape := ⟨3, ![3, 32, 960]⟩
abbrev S1x32x960 : Shape := ⟨3, ![1, 32, 960]⟩

abbrev nBuf : Space → Nat
  | .hbm => 3
  | .vmem => 7
  | .smem => 0
  | _ => 0

abbrev bufTy : (tb : Table) → Fin (tcTables nBuf tb) → BufTy
  | .hbm, ⟨0, _⟩ => ⟨S8x3x544x960, .f32⟩
  | .hbm, ⟨1, _⟩ => ⟨S8x27x544x960, .f32⟩
  | .hbm, ⟨2, _⟩ => ⟨S8x1x544x960, .f32⟩
  | .local _ .vmem, ⟨0, _⟩ => ⟨S1x3x544x960, .f32⟩
  | .local _ .vmem, ⟨1, _⟩ => ⟨S1x3x544x960, .f32⟩
  | .local _ .vmem, ⟨2, _⟩ => ⟨S1x27x32x960, .f32⟩
  | .local _ .vmem, ⟨3, _⟩ => ⟨S1x27x32x960, .f32⟩
  | .local _ .vmem, ⟨4, _⟩ => ⟨S1x1x32x960, .f32⟩
  | .local _ .vmem, ⟨5, _⟩ => ⟨S1x1x32x960, .f32⟩
  | .local _ .vmem, ⟨6, _⟩ => ⟨S3x546x962, .f32⟩
  | _, _ => ⟨S8x3x544x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def k0_mult1 (i : grid0.Coords) : BitVec 32 :=
  let arg1 : BitVec 32 := BitVec.ofNat 32 (i 1).val
  let c32_i32 : BitVec 32 := 32#32
  let v8 : BitVec 32 := Scalar.muli arg1 c32_i32
  v8
def k0_off1 (i : grid0.Coords) : Fin 3 → Nat :=
  let c0 : Index := 0#32
  let arg1 : BitVec 32 := BitVec.ofNat 32 (i 1).val
  let c32_i32 : BitVec 32 := 32#32
  let v8 : BitVec 32 := Scalar.muli arg1 c32_i32
  let v9 : BitVec 32 := v8
  let v10 : Index := Scalar.indexCast v9
  let c0_4 : Index := 0#32
  ![0, v10.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x544x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x27x32x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S3x546x962_S3x546x962_0_0_0 : ∀ a, (![0, 0, 0] : Fin 3 → Nat) a + S3x546x962.size a ≤ S3x546x962.size a
  h_S3x546x962 : 0 < S3x546x962.numel
  shapeCasts_S3x546x962_S3x546x962 : S3x546x962.ShapeCasts S3x546x962
  inb_S1x3x544x960_S1x3x544x960_0_0_0_0 : ∀ a, (![0, 0, 0, 0] : Fin 4 → Nat) a + S1x3x544x960.size a ≤ S1x3x544x960.size a
  h_S1x3x544x960 : 0 < S1x3x544x960.numel
  shapeCasts_S1x3x544x960_S3x544x960 : S1x3x544x960.ShapeCasts S3x544x960
  inb_S3x546x962_S3x544x960_0_1_1 : ∀ a, (![0, 1, 1] : Fin 3 → Nat) a + S3x544x960.size a ≤ S3x546x962.size a
  h_S3x544x960 : 0 < S3x544x960.numel
  shapeCasts_S3x544x960_S3x544x960 : S3x544x960.ShapeCasts S3x544x960
  h_S3x34x962 : 0 < S3x34x962.numel
  slices_S3x34x962_o0_0_0_S3x32x960 : S3x34x962.Slices ![0, 0, 0] S3x32x960
  slices_S3x32x960_o0_0_0_S1x32x960 : S3x32x960.Slices ![0, 0, 0] S1x32x960
  shapeCasts_S1x32x960_S32x960 : S1x32x960.ShapeCasts S32x960
  inb_S1x27x32x960_S1x1x32x960_0_0_0_0 : ∀ a, (![0, 0, 0, 0] : Fin 4 → Nat) a + S1x1x32x960.size a ≤ S1x27x32x960.size a
  h_S1x1x32x960 : 0 < S1x1x32x960.numel
  shapeCasts_S1x1x32x960_S32x960 : S1x1x32x960.ShapeCasts S32x960
  slices_S3x32x960_o1_0_0_S1x32x960 : S3x32x960.Slices ![1, 0, 0] S1x32x960
  inb_S1x27x32x960_S1x1x32x960_0_9_0_0 : ∀ a, (![0, 9, 0, 0] : Fin 4 → Nat) a + S1x1x32x960.size a ≤ S1x27x32x960.size a
  slices_S3x32x960_o2_0_0_S1x32x960 : S3x32x960.Slices ![2, 0, 0] S1x32x960
  inb_S1x27x32x960_S1x1x32x960_0_18_0_0 : ∀ a, (![0, 18, 0, 0] : Fin 4 → Nat) a + S1x1x32x960.size a ≤ S1x27x32x960.size a
  slices_S3x34x962_o0_0_1_S3x32x960 : S3x34x962.Slices ![0, 0, 1] S3x32x960
  inb_S1x27x32x960_S1x1x32x960_0_1_0_0 : ∀ a, (![0, 1, 0, 0] : Fin 4 → Nat) a + S1x1x32x960.size a ≤ S1x27x32x960.size a
  inb_S1x27x32x960_S1x1x32x960_0_10_0_0 : ∀ a, (![0, 10, 0, 0] : Fin 4 → Nat) a + S1x1x32x960.size a ≤ S1x27x32x960.size a
  inb_S1x27x32x960_S1x1x32x960_0_19_0_0 : ∀ a, (![0, 19, 0, 0] : Fin 4 → Nat) a + S1x1x32x960.size a ≤ S1x27x32x960.size a
  slices_S3x34x962_o0_0_2_S3x32x960 : S3x34x962.Slices ![0, 0, 2] S3x32x960
  inb_S1x27x32x960_S1x1x32x960_0_2_0_0 : ∀ a, (![0, 2, 0, 0] : Fin 4 → Nat) a + S1x1x32x960.size a ≤ S1x27x32x960.size a
  inb_S1x27x32x960_S1x1x32x960_0_11_0_0 : ∀ a, (![0, 11, 0, 0] : Fin 4 → Nat) a + S1x1x32x960.size a ≤ S1x27x32x960.size a
  inb_S1x27x32x960_S1x1x32x960_0_20_0_0 : ∀ a, (![0, 20, 0, 0] : Fin 4 → Nat) a + S1x1x32x960.size a ≤ S1x27x32x960.size a
  slices_S3x34x962_o0_1_0_S3x32x960 : S3x34x962.Slices ![0, 1, 0] S3x32x960
  inb_S1x27x32x960_S1x1x32x960_0_3_0_0 : ∀ a, (![0, 3, 0, 0] : Fin 4 → Nat) a + S1x1x32x960.size a ≤ S1x27x32x960.size a
  inb_S1x27x32x960_S1x1x32x960_0_12_0_0 : ∀ a, (![0, 12, 0, 0] : Fin 4 → Nat) a + S1x1x32x960.size a ≤ S1x27x32x960.size a
  inb_S1x27x32x960_S1x1x32x960_0_21_0_0 : ∀ a, (![0, 21, 0, 0] : Fin 4 → Nat) a + S1x1x32x960.size a ≤ S1x27x32x960.size a
  slices_S3x34x962_o0_1_1_S3x32x960 : S3x34x962.Slices ![0, 1, 1] S3x32x960
  inb_S1x27x32x960_S1x1x32x960_0_4_0_0 : ∀ a, (![0, 4, 0, 0] : Fin 4 → Nat) a + S1x1x32x960.size a ≤ S1x27x32x960.size a
  inb_S1x27x32x960_S1x1x32x960_0_13_0_0 : ∀ a, (![0, 13, 0, 0] : Fin 4 → Nat) a + S1x1x32x960.size a ≤ S1x27x32x960.size a
  inb_S1x27x32x960_S1x1x32x960_0_22_0_0 : ∀ a, (![0, 22, 0, 0] : Fin 4 → Nat) a + S1x1x32x960.size a ≤ S1x27x32x960.size a
  slices_S3x34x962_o0_1_2_S3x32x960 : S3x34x962.Slices ![0, 1, 2] S3x32x960
  inb_S1x27x32x960_S1x1x32x960_0_5_0_0 : ∀ a, (![0, 5, 0, 0] : Fin 4 → Nat) a + S1x1x32x960.size a ≤ S1x27x32x960.size a
  inb_S1x27x32x960_S1x1x32x960_0_14_0_0 : ∀ a, (![0, 14, 0, 0] : Fin 4 → Nat) a + S1x1x32x960.size a ≤ S1x27x32x960.size a
  inb_S1x27x32x960_S1x1x32x960_0_23_0_0 : ∀ a, (![0, 23, 0, 0] : Fin 4 → Nat) a + S1x1x32x960.size a ≤ S1x27x32x960.size a
  slices_S3x34x962_o0_2_0_S3x32x960 : S3x34x962.Slices ![0, 2, 0] S3x32x960
  inb_S1x27x32x960_S1x1x32x960_0_6_0_0 : ∀ a, (![0, 6, 0, 0] : Fin 4 → Nat) a + S1x1x32x960.size a ≤ S1x27x32x960.size a
  inb_S1x27x32x960_S1x1x32x960_0_15_0_0 : ∀ a, (![0, 15, 0, 0] : Fin 4 → Nat) a + S1x1x32x960.size a ≤ S1x27x32x960.size a
  inb_S1x27x32x960_S1x1x32x960_0_24_0_0 : ∀ a, (![0, 24, 0, 0] : Fin 4 → Nat) a + S1x1x32x960.size a ≤ S1x27x32x960.size a
  slices_S3x34x962_o0_2_1_S3x32x960 : S3x34x962.Slices ![0, 2, 1] S3x32x960
  inb_S1x27x32x960_S1x1x32x960_0_7_0_0 : ∀ a, (![0, 7, 0, 0] : Fin 4 → Nat) a + S1x1x32x960.size a ≤ S1x27x32x960.size a
  inb_S1x27x32x960_S1x1x32x960_0_16_0_0 : ∀ a, (![0, 16, 0, 0] : Fin 4 → Nat) a + S1x1x32x960.size a ≤ S1x27x32x960.size a
  inb_S1x27x32x960_S1x1x32x960_0_25_0_0 : ∀ a, (![0, 25, 0, 0] : Fin 4 → Nat) a + S1x1x32x960.size a ≤ S1x27x32x960.size a
  slices_S3x34x962_o0_2_2_S3x32x960 : S3x34x962.Slices ![0, 2, 2] S3x32x960
  inb_S1x27x32x960_S1x1x32x960_0_8_0_0 : ∀ a, (![0, 8, 0, 0] : Fin 4 → Nat) a + S1x1x32x960.size a ≤ S1x27x32x960.size a
  inb_S1x27x32x960_S1x1x32x960_0_17_0_0 : ∀ a, (![0, 17, 0, 0] : Fin 4 → Nat) a + S1x1x32x960.size a ≤ S1x27x32x960.size a
  inb_S1x27x32x960_S1x1x32x960_0_26_0_0 : ∀ a, (![0, 26, 0, 0] : Fin 4 → Nat) a + S1x1x32x960.size a ≤ S1x27x32x960.size a
  inb_S1x1x32x960_S1x1x32x960_0_0_0_0 : ∀ a, (![0, 0, 0, 0] : Fin 4 → Nat) a + S1x1x32x960.size a ≤ S1x1x32x960.size a
  shapeCasts_S32x960_S1x1x32x960 : S32x960.ShapeCasts S1x1x32x960
  hrank0 : 0 < grid0.rank
  k0_mult1_dvd : ∀ i : grid0.Coords, 8 ∣ (k0_mult1 i).toNat
  k0_off1_inb : ∀ i : grid0.Coords, ∀ a, (k0_off1 i) a + S3x34x962.size a ≤ S3x546x962.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x544x960.size a ≤ S8x3x544x960.size a
  hwx0_0 : ∀ i : grid0.Coords, EltTy.bits .f32 = 32 ∨ (Rect.block (s := S8x3x544x960) S1x3x544x960.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x27x32x960.size a ≤ S8x27x544x960.size a
  hwx0_1 : ∀ i : grid0.Coords, EltTy.bits .f32 = 32 ∨ (Rect.block (s := S8x27x544x960) S1x27x32x960.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x960.size a ≤ S8x1x544x960.size a
  hwx0_2 : ∀ i : grid0.Coords, EltTy.bits .f32 = 32 ∨ (Rect.block (s := S8x1x544x960) S1x1x32x960.size (cc0_transform_2 i) (hinb0_2 i)).WholeWords (EltTy.packing .f32)

variable [Facts₀]

abbrev win0_0 : Pipeline.Window sig grid0 :=
  Pipeline.Window.ofSpec (Memref.whole main_arg0) S1x3x544x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x27x32x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x32x960.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x544x960 : Shape := ⟨4, ![8, 3, 544, 960]⟩
abbrev S8x27x544x960 : Shape := ⟨4, ![8, 27, 544, 960]⟩
abbrev S_ : Shape := ⟨0, ![]⟩
abbrev S8x3x546x962 : Shape := ⟨4, ![8, 3, 546, 962]⟩
abbrev S8x3x1x544x960 : Shape := ⟨5, ![8, 3, 1, 544, 960]⟩
abbrev S8x3x9x544x960 : Shape := ⟨5, ![8, 3, 9, 544, 960]⟩
abbrev S8x544x960 : Shape := ⟨3, ![8, 544, 960]⟩
abbrev S8x1x544x960 : Shape := ⟨4, ![8, 1, 544, 960]⟩

abbrev nBuf : Space → Nat
  | .hbm => 29
  | .vmem => 0
  | .smem => 0
  | _ => 0

abbrev bufTy : (tb : Table) → Fin (tcTables nBuf tb) → BufTy
  | .hbm, ⟨0, _⟩ => ⟨S8x3x544x960, .f32⟩
  | .hbm, ⟨1, _⟩ => ⟨S8x27x544x960, .f32⟩
  | .hbm, ⟨2, _⟩ => ⟨S_, .i32⟩
  | .hbm, ⟨3, _⟩ => ⟨S_, .f32⟩
  | .hbm, ⟨4, _⟩ => ⟨S8x3x546x962, .f32⟩
  | .hbm, ⟨5, _⟩ => ⟨S8x3x544x960, .f32⟩
  | .hbm, ⟨6, _⟩ => ⟨S8x3x544x960, .f32⟩
  | .hbm, ⟨7, _⟩ => ⟨S8x3x544x960, .f32⟩
  | .hbm, ⟨8, _⟩ => ⟨S8x3x544x960, .f32⟩
  | .hbm, ⟨9, _⟩ => ⟨S8x3x544x960, .f32⟩
  | .hbm, ⟨10, _⟩ => ⟨S8x3x544x960, .f32⟩
  | .hbm, ⟨11, _⟩ => ⟨S8x3x544x960, .f32⟩
  | .hbm, ⟨12, _⟩ => ⟨S8x3x544x960, .f32⟩
  | .hbm, ⟨13, _⟩ => ⟨S8x3x544x960, .f32⟩
  | .hbm, ⟨14, _⟩ => ⟨S8x3x1x544x960, .f32⟩
  | .hbm, ⟨15, _⟩ => ⟨S8x3x1x544x960, .f32⟩
  | .hbm, ⟨16, _⟩ => ⟨S8x3x1x544x960, .f32⟩
  | .hbm, ⟨17, _⟩ => ⟨S8x3x1x544x960, .f32⟩
  | .hbm, ⟨18, _⟩ => ⟨S8x3x1x544x960, .f32⟩
  | .hbm, ⟨19, _⟩ => ⟨S8x3x1x544x960, .f32⟩
  | .hbm, ⟨20, _⟩ => ⟨S8x3x1x544x960, .f32⟩
  | .hbm, ⟨21, _⟩ => ⟨S8x3x1x544x960, .f32⟩
  | .hbm, ⟨22, _⟩ => ⟨S8x3x1x544x960, .f32⟩
  | .hbm, ⟨23, _⟩ => ⟨S8x3x9x544x960, .f32⟩
  | .hbm, ⟨24, _⟩ => ⟨S8x27x544x960, .f32⟩
  | .hbm, ⟨25, _⟩ => ⟨S8x27x544x960, .f32⟩
  | .hbm, ⟨26, _⟩ => ⟨S_, .f32⟩
  | .hbm, ⟨27, _⟩ => ⟨S8x544x960, .f32⟩
  | .hbm, ⟨28, _⟩ => ⟨S8x1x544x960, .f32⟩
  | _, _ => ⟨S8x3x544x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  pads_S8x3x544x960_S8x3x546x962_000_000_110_110 : S8x3x544x960.Pads (![0, 0, 1, 1] : Fin 4 → Nat) ![0, 0, 1, 1] ![0, 0, 0, 0] S8x3x546x962
  h_S_ : 0 < S_.numel
  slices_S8x3x546x962_S8x3x544x960_0_0_0_0 : S8x3x546x962.Slices ![0, 0, 0, 0] S8x3x544x960
  slices_S8x3x546x962_S8x3x544x960_0_0_0_1 : S8x3x546x962.Slices ![0, 0, 0, 1] S8x3x544x960
  slices_S8x3x546x962_S8x3x544x960_0_0_0_2 : S8x3x546x962.Slices ![0, 0, 0, 2] S8x3x544x960
  slices_S8x3x546x962_S8x3x544x960_0_0_1_0 : S8x3x546x962.Slices ![0, 0, 1, 0] S8x3x544x960
  slices_S8x3x546x962_S8x3x544x960_0_0_1_1 : S8x3x546x962.Slices ![0, 0, 1, 1] S8x3x544x960
  slices_S8x3x546x962_S8x3x544x960_0_0_1_2 : S8x3x546x962.Slices ![0, 0, 1, 2] S8x3x544x960
  slices_S8x3x546x962_S8x3x544x960_0_0_2_0 : S8x3x546x962.Slices ![0, 0, 2, 0] S8x3x544x960
  slices_S8x3x546x962_S8x3x544x960_0_0_2_1 : S8x3x546x962.Slices ![0, 0, 2, 1] S8x3x544x960
  slices_S8x3x546x962_S8x3x544x960_0_0_2_2 : S8x3x546x962.Slices ![0, 0, 2, 2] S8x3x544x960
  bcast_S8x3x544x960_S8x3x1x544x960_0_1_3_4 : S8x3x544x960.BroadcastsInDim S8x3x1x544x960 (![0, 1, 3, 4] : Fin 4 → Fin S8x3x1x544x960.rank)
  concatenates_S8x3x1x544x960_S8x3x1x544x960_S8x3x1x544x960_S8x3x1x544x960_S8x3x1x544x960_S8x3x1x544x960_S8x3x1x544x960_S8x3x1x544x960_S8x3x1x544x960_S8x3x9x544x960_d2 : Shape.Concatenates [S8x3x1x544x960, S8x3x1x544x960, S8x3x1x544x960, S8x3x1x544x960, S8x3x1x544x960, S8x3x1x544x960, S8x3x1x544x960, S8x3x1x544x960, S8x3x1x544x960] S8x3x9x544x960 2
  shapeCasts_S8x3x9x544x960_S8x27x544x960 : S8x3x9x544x960.ShapeCasts S8x27x544x960
  reducesTo_S8x27x544x960_S8x544x960_d1 : S8x27x544x960.ReducesTo [1] S8x544x960
  bcast_S8x544x960_S8x1x544x960_0_2_3 : S8x544x960.BroadcastsInDim S8x1x544x960 (![0, 2, 3] : Fin 3 → Fin S8x1x544x960.rank)

variable [Facts₀]

class Facts : Prop extends Facts₀ where

variable [Facts]
-- ==== Proof.TileDef.lean ====
/-
  What one grid point computes, as one function of what it loads. The body reads a [3, 34, 962] halo window `W` of the
  padded frame (34 rows from the point's first row, all 962 columns) and the point's [1, 27, 32, 960] filter block, one
  channel at a time, and stores the [1, 1, 32, 960] result block: the running sum, from zero, over the nine
  (row, column) offsets in order and the three image channels inside each, of the shifted window times the filter channel.
  `tile` is that stored value, assembled from the body's own arithmetic terms in the order the body applies them.
-/
import proofs.«140535_j8942121910817_2_alg».proof.Proof.Gen.KernelIdeal.Skeleton
import Idealize.ShloMosaic.Lib.Pipeline.FrameBody

noncomputable section

namespace Cert.KernelIdeal.Tile

open Cert.KernelIdeal Cert.KernelIdeal.Gen Idealize.ShloMosaic

variable {F : FTy → Type} [FloatOps F]

/-- Channel `k` of a point's filter block: its [1, 1, 32, 960] slab at offsets (0, k, 0, 0). -/
def chan (x1 : Vec F S1x27x32x960 .f32) (k : ℕ)
    (h : ∀ a, (![0, k, 0, 0] : Fin 4 → ℕ) a + S1x1x32x960.size a ≤ S1x27x32x960.size a) : Vec F S1x1x32x960 .f32 :=
  View.ld (Val := Elt F) x1 (Rect.unit ![0, k, 0, 0] S1x1x32x960.size h)

/-- The result block of one grid point from its halo window `W` and its filter block `x1`. -/
def tile (W : Vec F S3x34x962 .f32) (x1 : Vec F S1x27x32x960 .f32) : FVec F S1x1x32x960 .f32 :=
  k0_pay1
    (k0_pay16 W
      (k0_pay13 W
        (k0_pay10 W
          (k0_pay7 W (k0_pay4 W (chan x1 0 inb_S1x27x32x960_S1x1x32x960_0_0_0_0) (chan x1 9 inb_S1x27x32x960_S1x1x32x960_0_9_0_0) (chan x1 18 inb_S1x27x32x960_S1x1x32x960_0_18_0_0)) (k0_pay5 W) (k0_pay6 W)
            (chan x1 1 inb_S1x27x32x960_S1x1x32x960_0_1_0_0) (chan x1 10 inb_S1x27x32x960_S1x1x32x960_0_10_0_0) (chan x1 19 inb_S1x27x32x960_S1x1x32x960_0_19_0_0) (chan x1 2 inb_S1x27x32x960_S1x1x32x960_0_2_0_0) (chan x1 11 inb_S1x27x32x960_S1x1x32x960_0_11_0_0) (chan x1 20 inb_S1x27x32x960_S1x1x32x960_0_20_0_0))
          (k0_pay8 W) (chan x1 3 inb_S1x27x32x960_S1x1x32x960_0_3_0_0) (chan x1 12 inb_S1x27x32x960_S1x1x32x960_0_12_0_0) (chan x1 21 inb_S1x27x32x960_S1x1x32x960_0_21_0_0) (chan x1 4 inb_S1x27x32x960_S1x1x32x960_0_4_0_0) (chan x1 13 inb_S1x27x32x960_S1x1x32x960_0_13_0_0))
        (k0_pay11 W (chan x1 22 inb_S1x27x32x960_S1x1x32x960_0_22_0_0)) (chan x1 5 inb_S1x27x32x960_S1x1x32x960_0_5_0_0) (chan x1 14 inb_S1x27x32x960_S1x1x32x960_0_14_0_0) (chan x1 23 inb_S1x27x32x960_S1x1x32x960_0_23_0_0) (chan x1 6 inb_S1x27x32x960_S1x1x32x960_0_6_0_0) (chan x1 15 inb_S1x27x32x960_S1x1x32x960_0_15_0_0))
      (k0_pay14 W) (chan x1 24 inb_S1x27x32x960_S1x1x32x960_0_24_0_0) (chan x1 7 inb_S1x27x32x960_S1x1x32x960_0_7_0_0) (chan x1 16 inb_S1x27x32x960_S1x1x32x960_0_16_0_0) (chan x1 25 inb_S1x27x32x960_S1x1x32x960_0_25_0_0) (chan x1 8 inb_S1x27x32x960_S1x1x32x960_0_8_0_0) (chan x1 17 inb_S1x27x32x960_S1x1x32x960_0_17_0_0))
    (k0_pay17 W) (chan x1 26 inb_S1x27x32x960_S1x1x32x960_0_26_0_0)

end Cert.KernelIdeal.Tile

end
-- ==== Proof.Cases.lean ====
/-
  Each control case of the body leaves, in the result block's staging buffer, the `tile` of the halo window of the
  padded-frame scratch AS THAT CASE LEAVES IT and of the point's filter block. The three cases differ only in what
  they do to the scratch before the window is read: the first grid point clears it and lays the image block into its
  interior; the first row-tile of a later image lays the new image block over what the scratch held; every other
  point leaves it alone.
-/
import proofs.«140535_j8942121910817_2_alg».proof.Proof.Gen.KernelIdeal.Frame
import proofs.«140535_j8942121910817_2_alg».proof.Proof.TileDef
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.Tactic

variable {F : FTy → Type} [FloatOps F]

theorem zero4 : (![0, 0, 0, 0] : Fin 4 → Nat) = fun _ => 0 := funext fun a => by fin_cases a <;> rfl

/-- The halo window of scratch contents `S` at grid coordinates `i`: 34 rows from row 32·i₁, every channel and column. -/
abbrev halo (i : grid0.Coords) (S : Vec F S3x546x962 .f32) : Vec F S3x34x962 .f32 :=
  View.ld (Val := Elt F) S (Rect.unit (k0_off1 i) S3x34x962.size (k0_off1_inb i))

/-- A point that leaves the scratch alone: the tile of the halo of what the scratch held. -/
theorem out_B (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : ¬cond0_0 i) (hc1 : ¬cond0_1 i)
    (x0 : Vec F S1x3x544x960 .f32) (x1 : Vec F S1x27x32x960 .f32) (xs0 : Vec F S3x546x962 .f32) :
    out0_B_2 c i a2 h2 a3 h3 a4 h4 a5 h5 hc0 hc1 x0 x1 xs0 = tile (halo i xs0) x1 := by
  unfold out0_B_2
  rw [View.read_writes_eq_canon _ _ _ (cover0_B_2 c i a2 h2 a3 h3 a4 h4 a5 h5 hc0 hc1 x0 x1 xs0)]
  unfold kernelRun0_B
  dsimp only
  sl_unfold_words
  rw [View.canon_unit_zero zero4]
  simp only [View.readAt_eq_ld, h3.read_unread, h5.read_unread]
  rfl

/-- The first row-tile of a later image: the tile of the halo of the scratch with the new image block laid in. -/
theorem out_C (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : ¬cond0_0 i) (hc1 : cond0_1 i)
    (x0 : Vec F S1x3x544x960 .f32) (x1 : Vec F S1x27x32x960 .f32) (xs0 : Vec F S3x546x962 .f32) :
    out0_C_2 c i a2 h2 a3 h3 a4 h4 a5 h5 hc0 hc1 x0 x1 xs0 = tile (halo i (sout0_C_0 c i a2 h2 a3 h3 a4 h4 a5 h5 hc0 hc1 x0 x1 xs0)) x1 := by
  unfold out0_C_2 sout0_C_0
  rw [View.read_writes_eq_canon _ _ _ (cover0_C_2 c i a2 h2 a3 h3 a4 h4 a5 h5 hc0 hc1 x0 x1 xs0)]
  unfold kernelRun0_C
  dsimp only
  sl_unfold_words
  rw [View.canon_unit_zero zero4]
  simp only [View.readAt_eq_ld, h3.read_unread]
  rfl

/-- The first grid point: the tile of the halo of the cleared scratch with the image block laid in. -/
theorem out_A (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : cond0_0 i) (hc1 : cond0_1 i)
    (x0 : Vec F S1x3x544x960 .f32) (x1 : Vec F S1x27x32x960 .f32) :
    out0_A_2 c i a2 h2 a3 h3 a4 h4 a5 h5 hc0 hc1 x0 x1
      = tile (halo i (a5.view.read (Elt F) (a5.view.writes (Elt F) a5.view.junk (kernelRun0_A c i a2 h2 a3 h3 a4 h4 a5 h5 hc0 hc1 x0 x1).2.1))) x1 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero zero4]
  simp only [View.readAt_eq_ld, h3.read_unread]
  rfl

end Cert.KernelIdeal.Tile

end
-- ==== Proof.Layout.lean ====
/-
  Layout operations of the kernel body and of the reference read at coordinates. A change of shape keeps the
  row-major position, so a [1, a, b] or [1, 1, a, b] array viewed as [a, b] reads (r, w) at (0, r, w) or (0, 0, r, w),
  and back; a unit-stride slice reads its operand at the index shifted by the offsets.
-/
import Idealize.ShloMosaic.Lib.Pipeline.Value
import Idealize.ShloMosaic.Lib.ValueIdx

noncomputable section

open Idealize.ShloMosaic Idealize.ShloMosaic.ValueIdx

namespace DynFilter

variable {α : Type}

/-! ## The body's 32 × 960 tile -/

/-- A [1, 32, 960] slab viewed as a [32, 960] tile. -/
theorem cast_slab_tile (v : (⟨3, ![1, 32, 960]⟩ : Shape).Idx → α)
    (h : (⟨3, ![1, 32, 960]⟩ : Shape).ShapeCasts ⟨2, ![32, 960]⟩) (r : Fin 32) (w : Fin 960) :
    shapeCast ⟨2, ![32, 960]⟩ v h (ix2 r w) = v (ix3 (0 : Fin 1) r w) :=
  shapeCast_apply v h (ix2 r w) (ix3 (0 : Fin 1) r w) (by
    rw [Shape.rowMajor_val_three, Shape.rowMajor_val_two]
    show (0 * 32 + r.val) * 960 + w.val = r.val * 960 + w.val
    omega)

/-- A [1, 1, 32, 960] block viewed as a [32, 960] tile. -/
theorem cast_block_tile (v : (⟨4, ![1, 1, 32, 960]⟩ : Shape).Idx → α)
    (h : (⟨4, ![1, 1, 32, 960]⟩ : Shape).ShapeCasts ⟨2, ![32, 960]⟩) (r : Fin 32) (w : Fin 960) :
    shapeCast ⟨2, ![32, 960]⟩ v h (ix2 r w) = v (ix4 (0 : Fin 1) (0 : Fin 1) r w) :=
  shapeCast_apply v h (ix2 r w) (ix4 (0 : Fin 1) (0 : Fin 1) r w) (by
    rw [Shape.rowMajor_val_four, Shape.rowMajor_val_two]
    show ((0 * 1 + 0) * 32 + r.val) * 960 + w.val = r.val * 960 + w.val
    omega)

/-- A [32, 960] tile viewed as a [1, 1, 32, 960] block. -/
theorem cast_tile_block (v : (⟨2, ![32, 960]⟩ : Shape).Idx → α)
    (h : (⟨2, ![32, 960]⟩ : Shape).ShapeCasts ⟨4, ![1, 1, 32, 960]⟩) (r : Fin 32) (w : Fin 960) :
    shapeCast ⟨4, ![1, 1, 32, 960]⟩ v h (ix4 (0 : Fin 1) (0 : Fin 1) r w) = v (ix2 r w) :=
  shapeCast_apply v h (ix4 (0 : Fin 1) (0 : Fin 1) r w) (ix2 r w) (by
    rw [Shape.rowMajor_val_four, Shape.rowMajor_val_two]
    show r.val * 960 + w.val = ((0 * 1 + 0) * 32 + r.val) * 960 + w.val
    omega)

/-- A slice of one channel out of three starts at a channel below three. -/
theorem channel_lt {k : ℕ} (h : (⟨3, ![3, 32, 960]⟩ : Shape).Slices ![k, 0, 0] ⟨3, ![1, 32, 960]⟩) : k < 3 := by
  obtain ⟨_, hb⟩ := h
  have := hb (0 : Fin 3)
  change k + 1 ≤ 3 at this
  omega

/-- Channel `k` of a [3, 32, 960] window, as a [1, 32, 960] slab. -/
theorem slice_channel (k : ℕ) (v : (⟨3, ![3, 32, 960]⟩ : Shape).Idx → α)
    (h : (⟨3, ![3, 32, 960]⟩ : Shape).Slices ![k, 0, 0] ⟨3, ![1, 32, 960]⟩) (r : Fin 32) (w : Fin 960) :
    extractStridedSlice ⟨3, ![1, 32, 960]⟩ ![k, 0, 0] v h (ix3 (0 : Fin 1) r w)
      = v (ix3 (⟨k, channel_lt h⟩ : Fin 3) r w) :=
  extractStridedSlice_apply ![k, 0, 0] v h (ix3 (0 : Fin 1) r w) (ix3 (⟨k, channel_lt h⟩ : Fin 3) r w) (fun a =>
    match a with
    | ⟨0, _⟩ => by show k = k + 0; omega
    | ⟨1, _⟩ => by show r.val = 0 + r.val; omega
    | ⟨2, _⟩ => by show w.val = 0 + w.val; omega)

/-- A 32-row, 960-column window of a 34-row, 962-column halo starts at a row and a column offset below three. -/
theorem halo_lt {i l : ℕ} (h : (⟨3, ![3, 34, 962]⟩ : Shape).Slices ![0, i, l] ⟨3, ![3, 32, 960]⟩) : i < 3 ∧ l < 3 := by
  obtain ⟨_, hb⟩ := h
  have h1 := hb (1 : Fin 3)
  have h2 := hb (2 : Fin 3)
  change i + 32 ≤ 34 at h1
  change l + 960 ≤ 962 at h2
  omega

/-- The [3, 32, 960] window of a [3, 34, 962] halo at row offset `i` and column offset `l`. -/
theorem slice_halo (i l : ℕ) (v : (⟨3, ![3, 34, 962]⟩ : Shape).Idx → α)
    (h : (⟨3, ![3, 34, 962]⟩ : Shape).Slices ![0, i, l] ⟨3, ![3, 32, 960]⟩) (c : Fin 3) (r : Fin 32) (w : Fin 960) :
    extractStridedSlice ⟨3, ![3, 32, 960]⟩ ![0, i, l] v h (ix3 c r w)
      = v (ix3 c (⟨r.val + i, by have := (halo_lt h).1; omega⟩ : Fin 34) (⟨w.val + l, by have := (halo_lt h).2; omega⟩ : Fin 962)) :=
  extractStridedSlice_apply ![0, i, l] v h (ix3 c r w) _ (fun a =>
    match a with
    | ⟨0, _⟩ => by show c.val = 0 + c.val; omega
    | ⟨1, _⟩ => by show r.val + i = i + r.val; omega
    | ⟨2, _⟩ => by show w.val + l = l + w.val; omega)

/-! ## The image block laid into the padded frame -/

/-- A [1, 3, 544, 960] image block viewed as [3, 544, 960]. -/
theorem cast_image (v : (⟨4, ![1, 3, 544, 960]⟩ : Shape).Idx → α)
    (h : (⟨4, ![1, 3, 544, 960]⟩ : Shape).ShapeCasts ⟨3, ![3, 544, 960]⟩) (c : Fin 3) (p : Fin 544) (q : Fin 960) :
    shapeCast ⟨3, ![3, 544, 960]⟩ v h (ix3 c p q) = v (ix4 (0 : Fin 1) c p q) :=
  shapeCast_apply v h (ix3 c p q) (ix4 (0 : Fin 1) c p q) (by
    rw [Shape.rowMajor_val_four, Shape.rowMajor_val_three]
    show ((0 * 3 + c.val) * 544 + p.val) * 960 + q.val = (c.val * 544 + p.val) * 960 + q.val
    omega)

end DynFilter

end
-- ==== Proof.ScratchCases.lean ====
/-
  What the two storing cases leave in the padded-frame scratch [3, 546, 962], read at channel `c`, row `p`, column `q`.
  Laying an image block in writes the interior (rows 1..544, columns 1..960) with the block at (c, p − 1, q − 1) and
  touches nothing else. So after the first grid point, which first clears the whole scratch, the ring holds the zero
  word; and after the first row-tile of a later image the ring holds what it held before.
-/
import proofs.«140535_j8942121910817_2_alg».proof.Proof.Gen.KernelIdeal.Frame
import proofs.«140535_j8942121910817_2_alg».proof.Proof.Layout
import Idealize.ShloMosaic.Lib.Pipeline.Value
import Idealize.ShloMosaic.Lib.WritesUnit
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.Tactic Idealize.ShloMosaic.ValueIdx DynFilter

variable {F : FTy → Type} [FloatOps F]

theorem zero4' : (![0, 0, 0, 0] : Fin 4 → Nat) = fun _ => 0 := funext fun a => by fin_cases a <;> rfl

/-- The image block as the body lays it in: the [1, 3, 544, 960] block at (0, c, p, q). -/
theorem laid_apply (a2 : Memref sig .tc .vmem S1x3x544x960 .f32) (h2 : a2.IsWhole) (x0 : Vec F S1x3x544x960 .f32)
    (c : Fin 3) (p : Fin 544) (q : Fin 960) :
    k0_pay3 (View.readAt (Elt F) a2.view
        (Rect.unit ![0, 0, 0, 0] S1x3x544x960.size inb_S1x3x544x960_S1x3x544x960_0_0_0_0).toLoadRect (h2.unread x0))
      (ix3 c p q) = x0 (ix4 (0 : Fin 1) c p q) := by
  unfold k0_pay3
  simp only [shapeCast_self, cast_image, View.readAt_eq_ld, h2.read_unread, View.ld_unit_zero (S := S1x3x544x960) zero4']

section Coordinates
variable (c' : Fin 3) (p : Fin 546) (q : Fin 962)

/-- Inside the interior, the first row-tile of a later image leaves the new image block. -/
theorem sout_C_inside (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : ¬cond0_0 i) (hc1 : cond0_1 i)
    (x0 : Vec F S1x3x544x960 .f32) (x1 : Vec F S1x27x32x960 .f32) (xs0 : Vec F S3x546x962 .f32)
    (hp : 1 ≤ p.val ∧ p.val ≤ 544) (hq : 1 ≤ q.val ∧ q.val ≤ 960) :
    sout0_C_0 c i a2 h2 a3 h3 a4 h4 a5 h5 hc0 hc1 x0 x1 xs0 (ix3 c' p q)
      = x0 (ix4 (0 : Fin 1) c' (⟨p.val - 1, by omega⟩ : Fin 544) (⟨q.val - 1, by omega⟩ : Fin 960)) := by
  unfold sout0_C_0 kernelRun0_C
  dsimp only
  sl_unfold_words
  refine (View.read_writes_cons_unit_of_mem a5.view _ _ _ [] (ix3 c' p q)
    (ix3 c' (⟨p.val - 1, by omega⟩ : Fin 544) (⟨q.val - 1, by omega⟩ : Fin 960)) rfl (fun a => ?_)).trans
    (laid_apply a2 h2 x0 c' _ _)
  match a with
  | ⟨0, _⟩ => show c'.val = 0 + c'.val; omega
  | ⟨1, _⟩ => show p.val = 1 + (p.val - 1); omega
  | ⟨2, _⟩ => show q.val = 1 + (q.val - 1); omega

/-- On the ring, it leaves what the scratch held. -/
theorem sout_C_ring (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : ¬cond0_0 i) (hc1 : cond0_1 i)
    (x0 : Vec F S1x3x544x960 .f32) (x1 : Vec F S1x27x32x960 .f32) (xs0 : Vec F S3x546x962 .f32)
    (h : ¬((1 ≤ p.val ∧ p.val ≤ 544) ∧ (1 ≤ q.val ∧ q.val ≤ 960))) :
    sout0_C_0 c i a2 h2 a3 h3 a4 h4 a5 h5 hc0 hc1 x0 x1 xs0 (ix3 c' p q) = xs0 (ix3 c' p q) := by
  unfold sout0_C_0 kernelRun0_C
  dsimp only
  sl_unfold_words
  have key : ∀ (a : Fin 3) (ha : ((ix3 c' p q : S3x546x962.Idx) a).val < (![0, 1, 1] : Fin 3 → ℕ) a
      ∨ (![0, 1, 1] : Fin 3 → ℕ) a + S3x544x960.size a ≤ ((ix3 c' p q : S3x546x962.Idx) a).val),
      a5.view.read (Elt F) (a5.view.writes (Elt F) (h5.unread xs0)
        [⟨Rect.unit ![0, 1, 1] S3x544x960.size inb_S3x546x962_S3x544x960_0_1_1,
          k0_pay3 (View.readAt (Elt F) a2.view
            (Rect.unit ![0, 0, 0, 0] S1x3x544x960.size inb_S1x3x544x960_S1x3x544x960_0_0_0_0).toLoadRect (h2.unread x0))⟩])
        (ix3 c' p q) = xs0 (ix3 c' p q) := fun a ha =>
    (View.read_writes_cons_unit_of_not_mem a5.view _ _ _ [] (ix3 c' p q) rfl a ha).trans
      (congrFun (h5.read_unread xs0) _)
  by_cases hp : 1 ≤ p.val ∧ p.val ≤ 544
  · have hq : ¬(1 ≤ q.val ∧ q.val ≤ 960) := fun hq => h ⟨hp, hq⟩
    exact key (2 : Fin 3) (by show q.val < 1 ∨ 1 + 960 ≤ q.val; omega)
  · exact key (1 : Fin 3) (by show p.val < 1 ∨ 1 + 544 ≤ p.val; omega)

/-- Inside the interior, the first grid point leaves the image block. -/
theorem sout_A_inside (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : cond0_0 i) (hc1 : cond0_1 i)
    (x0 : Vec F S1x3x544x960 .f32) (x1 : Vec F S1x27x32x960 .f32)
    (hp : 1 ≤ p.val ∧ p.val ≤ 544) (hq : 1 ≤ q.val ∧ q.val ≤ 960) :
    a5.view.read (Elt F) (a5.view.writes (Elt F) a5.view.junk (kernelRun0_A c i a2 h2 a3 h3 a4 h4 a5 h5 hc0 hc1 x0 x1).2.1) (ix3 c' p q)
      = x0 (ix4 (0 : Fin 1) c' (⟨p.val - 1, by omega⟩ : Fin 544) (⟨q.val - 1, by omega⟩ : Fin 960)) := by
  unfold kernelRun0_A
  dsimp only
  sl_unfold_words
  refine (View.read_writes_cons_unit_of_mem a5.view _ _ _ _ (ix3 c' p q)
    (ix3 c' (⟨p.val - 1, by omega⟩ : Fin 544) (⟨q.val - 1, by omega⟩ : Fin 960)) rfl (fun a => ?_)).trans
    (laid_apply a2 h2 x0 c' _ _)
  match a with
  | ⟨0, _⟩ => show c'.val = 0 + c'.val; omega
  | ⟨1, _⟩ => show p.val = 1 + (p.val - 1); omega
  | ⟨2, _⟩ => show q.val = 1 + (q.val - 1); omega

/-- On the ring, it leaves the zero word the clearing store wrote. -/
theorem sout_A_ring (c : Dev nD) (i : grid0.Coords) (a2 : Memref sig .tc .vmem S1x3x544x960 .f32) (h2 : a2.IsWhole) (a3 : Memref sig .tc .vmem S1x27x32x960 .f32) (h3 : a3.IsWhole) (a4 : Memref sig .tc .vmem S1x1x32x960 .f32) (h4 : a4.IsWhole) (a5 : Memref sig .tc .vmem S3x546x962 .f32) (h5 : a5.IsWhole) (hc0 : cond0_0 i) (hc1 : cond0_1 i)
    (x0 : Vec F S1x3x544x960 .f32) (x1 : Vec F S1x27x32x960 .f32)
    (h : ¬((1 ≤ p.val ∧ p.val ≤ 544) ∧ (1 ≤ q.val ∧ q.val ≤ 960))) :
    a5.view.read (Elt F) (a5.view.writes (Elt F) a5.view.junk (kernelRun0_A c i a2 h2 a3 h3 a4 h4 a5 h5 hc0 hc1 x0 x1).2.1) (ix3 c' p q) = Scalar.ofBits .f32 0x00000000#32 := by
  unfold kernelRun0_A
  dsimp only
  sl_unfold_words
  have cleared : a5.view.read (Elt F) (a5.view.writes (Elt F) a5.view.junk
      [⟨Rect.unit ![0, 0, 0] S3x546x962.size inb_S3x546x962_S3x546x962_0_0_0, k0_pay2⟩]) (ix3 c' p q)
      = Scalar.ofBits .f32 0x00000000#32 :=
    (View.read_writes_cons_unit_of_mem a5.view _ _ _ [] (ix3 c' p q) (ix3 c' p q) rfl (fun a => by
      match a with
      | ⟨0, _⟩ => show c'.val = 0 + c'.val; omega
      | ⟨1, _⟩ => show p.val = 0 + p.val; omega
      | ⟨2, _⟩ => show q.val = 0 + q.val; omega)).trans (by unfold k0_pay2; rw [shapeCast_self]; rfl)
  have key : ∀ (a : Fin 3) (ha : ((ix3 c' p q : S3x546x962.Idx) a).val < (![0, 1, 1] : Fin 3 → ℕ) a
      ∨ (![0, 1, 1] : Fin 3 → ℕ) a + S3x544x960.size a ≤ ((ix3 c' p q : S3x546x962.Idx) a).val),
      a5.view.read (Elt F) (a5.view.writes (Elt F) a5.view.junk
        [⟨Rect.unit ![0, 1, 1] S3x544x960.size inb_S3x546x962_S3x544x960_0_1_1,
          k0_pay3 (View.readAt (Elt F) a2.view
            (Rect.unit ![0, 0, 0, 0] S1x3x544x960.size inb_S1x3x544x960_S1x3x544x960_0_0_0_0).toLoadRect (h2.unread x0))⟩,
         ⟨Rect.unit ![0, 0, 0] S3x546x962.size inb_S3x546x962_S3x546x962_0_0_0, k0_pay2⟩])
        (ix3 c' p q) = Scalar.ofBits .f32 0x00000000#32 := fun a ha =>
    (View.read_writes_cons_unit_of_not_mem a5.view _ _ _ _ (ix3 c' p q) rfl a ha).trans cleared
  by_cases hp : 1 ≤ p.val ∧ p.val ≤ 544
  · have hq : ¬(1 ≤ q.val ∧ q.val ≤ 960) := fun hq => h ⟨hp, hq⟩
    exact key (2 : Fin 3) (by show q.val < 1 ∨ 1 + 960 ≤ q.val; omega)
  · exact key (1 : Fin 3) (by show p.val < 1 ∨ 1 + 544 ≤ p.val; omega)

end Coordinates

end Cert.KernelIdeal.Tile

end
-- ==== Proof.Spec.lean ====
/-
  The specification. For a batch of images `x` [8, 3, 544, 960] and per-pixel filters `f` [8, 27, 544, 960], the result at
  batch `b`, row `r`, column `w` is the 3×3 local dot product over the three channels,

      out[b, 0, r, w] = Σ_c Σ_i Σ_l  P[b, c, r + i, w + l] · f[b, 9c + 3i + l, r, w],

  where `P` is the image with one ring of zeros around it (the [546, 962] frame: `P[b, c, p, q] = x[b, c, p − 1, q − 1]`
  for `1 ≤ p ≤ 544`, `1 ≤ q ≤ 960`, and `0` on the ring). Also here: the two re-arrangements of that sum the two
  programs compute — one sum over the 27 filter channels `k` (channel `k / 9`, row offset `(k % 9) / 3`, column offset
  `k % 3`), and a running sum from zero that takes the nine offsets in order and the three channels inside each. Both are
  the triple sum in any commutative monoid: only the order and the grouping of the additions differ, so nothing is
  asked of the summands (the extended reals' addition is commutative and associative also at the infinities).
-/
import Idealize.ShloMosaic.PureOps.Ideal
import Idealize.ShloMosaic.Lib.ValueIdx

noncomputable section

open scoped BigOperators
open Idealize.ShloMosaic Idealize.ShloMosaic.ValueIdx

namespace DynFilter

/-- The images, the filters and the result, as shapes. -/
abbrev Img : Shape := ⟨4, ![8, 3, 544, 960]⟩
abbrev Flt : Shape := ⟨4, ![8, 27, 544, 960]⟩
abbrev Res : Shape := ⟨4, ![8, 1, 544, 960]⟩

/-- Channel `c` of image `b` with one ring of zeros around it, at row `p` and column `q` of the [546, 962] frame. -/
def padded (x : Img.Idx → EReal) (b : Fin 8) (c : Fin 3) (p q : ℕ) : EReal :=
  if h : (1 ≤ p ∧ p ≤ 544) ∧ (1 ≤ q ∧ q ≤ 960) then
    x (ix4 b c ⟨p - 1, by omega⟩ ⟨q - 1, by omega⟩)
  else 0

theorem padded_inside (x : Img.Idx → EReal) (b : Fin 8) (c : Fin 3) (p q : ℕ) (hp : 1 ≤ p ∧ p ≤ 544) (hq : 1 ≤ q ∧ q ≤ 960) :
    padded x b c p q = x (ix4 b c ⟨p - 1, by omega⟩ ⟨q - 1, by omega⟩) := dif_pos ⟨hp, hq⟩

theorem padded_ring (x : Img.Idx → EReal) (b : Fin 8) (c : Fin 3) (p q : ℕ) (h : ¬((1 ≤ p ∧ p ≤ 544) ∧ (1 ≤ q ∧ q ≤ 960))) :
    padded x b c p q = 0 := dif_neg h

/-- The filter channel that meets image channel `c` at row offset `i` and column offset `l`. -/
def tap (c i l : Fin 3) : Fin 27 := ⟨9 * c.val + 3 * i.val + l.val, by omega⟩

/-- One product of the local dot product at batch `b`, row `r`, column `w`. -/
def term (x : Img.Idx → EReal) (f : Flt.Idx → EReal) (b : Fin 8) (r : Fin 544) (w : Fin 960) (c i l : Fin 3) : EReal :=
  padded x b c (r.val + i.val) (w.val + l.val) * f (ix4 b (tap c i l) r w)

/-- The result array as one function of the two argument arrays. -/
def G (x : Img.Idx → EReal) (f : Flt.Idx → EReal) : Res.Idx → EReal :=
  fun j => ∑ c : Fin 3, ∑ i : Fin 3, ∑ l : Fin 3, term x f (j 0) (j 2) (j 3) c i l

section Sums
variable {M : Type*} [AddCommMonoid M]

/-- A sum over the 27 filter channels is the sum over image channel, row offset and column offset. -/
theorem sum_channels (g : Fin 27 → M) :
    ∑ k : Fin 27, g k = ∑ c : Fin 3, ∑ i : Fin 3, ∑ l : Fin 3, g (tap c i l) := by
  have e1 : ∑ k : Fin 27, g k = ∑ p : Fin 3 × Fin 9, g (finProdFinEquiv p) :=
    (Fintype.sum_equiv (finProdFinEquiv (m := 3) (n := 9)) (fun p => g (finProdFinEquiv p)) g (fun _ => rfl)).symm
  rw [e1, Fintype.sum_prod_type]
  refine Finset.sum_congr rfl fun c _ => ?_
  have e2 : ∑ n : Fin 9, g (finProdFinEquiv (c, n))
      = ∑ q : Fin 3 × Fin 3, g (finProdFinEquiv (c, finProdFinEquiv q)) :=
    (Fintype.sum_equiv (finProdFinEquiv (m := 3) (n := 3)) (fun q => g (finProdFinEquiv (c, finProdFinEquiv q)))
      (fun n => g (finProdFinEquiv (c, n))) (fun _ => rfl)).symm
  rw [e2, Fintype.sum_prod_type]
  refine Finset.sum_congr rfl fun i _ => Finset.sum_congr rfl fun l _ => congrArg g (Fin.ext ?_)
  show l.val + 3 * i.val + 9 * c.val = 9 * c.val + 3 * i.val + l.val
  omega

/-- The running sum from zero that takes the nine (row, column) offsets in order and, inside each, the three channels,
    is the triple sum. -/
theorem chain_eq_sum (T : Fin 3 → Fin 3 → Fin 3 → M) :
    0 + T 0 0 0 + T 1 0 0 + T 2 0 0 + T 0 0 1 + T 1 0 1 + T 2 0 1 + T 0 0 2 + T 1 0 2 + T 2 0 2
      + T 0 1 0 + T 1 1 0 + T 2 1 0 + T 0 1 1 + T 1 1 1 + T 2 1 1 + T 0 1 2 + T 1 1 2 + T 2 1 2
      + T 0 2 0 + T 1 2 0 + T 2 2 0 + T 0 2 1 + T 1 2 1 + T 2 2 1 + T 0 2 2 + T 1 2 2 + T 2 2 2
      = ∑ c : Fin 3, ∑ i : Fin 3, ∑ l : Fin 3, T c i l := by
  simp only [Fin.sum_univ_three, zero_add]
  ac_rfl

end Sums

end DynFilter

end
-- ==== Proof.TileValue.lean ====
/-
  The tile at an index, over the extended reals: row `r`, column `w` of a point's result block is the sum over image
  channel `c`, row offset `i` and column offset `l` of the halo window at (c, r + i, w + l) times filter channel
  9c + 3i + l at (r, w). The body adds the 27 products one at a time from zero, offsets outermost; that running sum is
  the triple sum by commutativity and associativity alone.
-/
import proofs.«140535_j8942121910817_2_alg».proof.Proof.TileDef
import proofs.«140535_j8942121910817_2_alg».proof.Proof.Layout
import proofs.«140535_j8942121910817_2_alg».proof.Proof.Spec
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx DynFilter

/-- A filter channel's slab starts at a channel below 27. -/
theorem chan_lt {k : ℕ} (h : ∀ a, (![0, k, 0, 0] : Fin 4 → ℕ) a + S1x1x32x960.size a ≤ S1x27x32x960.size a) : k < 27 := by
  have := h (1 : Fin 4)
  change k + 1 ≤ 27 at this
  omega

/-- Filter channel `k`'s slab at (0, 0, r, w) is the filter block at (0, k, r, w). -/
theorem chan_apply (x1 : FVec Ideal S1x27x32x960 .f32) (k : ℕ)
    (h : ∀ a, (![0, k, 0, 0] : Fin 4 → ℕ) a + S1x1x32x960.size a ≤ S1x27x32x960.size a) (r : Fin 32) (w : Fin 960) :
    chan (F := Ideal) x1 k h (ix4 (0 : Fin 1) (0 : Fin 1) r w) = x1 (ix4 (0 : Fin 1) (⟨k, chan_lt h⟩ : Fin 27) r w) := by
  show x1 ((Rect.unit (s := S1x27x32x960) ![0, k, 0, 0] S1x1x32x960.size h).idx (ix4 (0 : Fin 1) (0 : Fin 1) r w)) = _
  refine congrArg x1 (funext fun a => Fin.ext ?_)
  match a with
  | ⟨0, _⟩ => show 0 + 1 * 0 = 0; omega
  | ⟨1, _⟩ => show k + 1 * 0 = k; omega
  | ⟨2, _⟩ => show 0 + 1 * r.val = r.val; omega
  | ⟨3, _⟩ => show 0 + 1 * w.val = w.val; omega

/-- The zero the running sum starts from. -/
theorem zero_word : (Scalar.ofBits (F := Ideal) .f32 0x00000000#32 : EReal) = 0 := Ideal.ofBits_zero_f32

/-- Row `r`, column `w` of the tile is the triple sum of halo window times filter channel. -/
theorem tile_apply (W : FVec Ideal S3x34x962 .f32) (x1 : FVec Ideal S1x27x32x960 .f32) (r : Fin 32) (w : Fin 960) :
    tile (F := Ideal) W x1 (ix4 (0 : Fin 1) (0 : Fin 1) r w)
      = ∑ c : Fin 3, ∑ i : Fin 3, ∑ l : Fin 3,
          W (ix3 c (⟨r.val + i.val, by omega⟩ : Fin 34) (⟨w.val + l.val, by omega⟩ : Fin 962))
            * x1 (ix4 (0 : Fin 1) (tap c i l) r w) := by
  rw [← chain_eq_sum]
  unfold tile
  simp only [k0_pay1, k0_pay16, k0_pay13, k0_pay10, k0_pay7, k0_pay4, k0_pay5, k0_pay6, k0_pay8, k0_pay9, k0_pay11,
    k0_pay12, k0_pay14, k0_pay15, k0_pay17, cast_tile_block, cast_block_tile, cast_slab_tile, slice_channel, slice_halo, mulf_apply, addf_apply,
    broadcast_apply, chan_apply, zero_word]
  rfl

end Cert.KernelIdeal.Tile

end
-- ==== Proof.KernelValue.lean ====
/-
  The kernel's result array is the specification. Grid point `t` works on image `t / 17` and row-tile `t % 17` (32 rows).
  By induction on the grid point, the padded-frame scratch after point `t` holds image `t / 17` ringed by zeros: the very
  first point clears it and lays image 0 in; the first row-tile of each later image lays the new image over the old
  interior and leaves the ring, which is still zero; every other point leaves the scratch alone, and its image is its
  predecessor's. So the halo window a point reads is rows 32·(t % 17) … + 33 of that padded image, the block it writes
  back is rows 32·(t % 17) … + 31 of the specification for image `t / 17`, and the 136 blocks tile the result array.
-/
import proofs.«140535_j8942121910817_2_alg».proof.Proof.Gen.KernelIdeal.Value
import proofs.«140535_j8942121910817_2_alg».proof.Proof.Cases
import proofs.«140535_j8942121910817_2_alg».proof.Proof.ScratchCases
import proofs.«140535_j8942121910817_2_alg».proof.Proof.TileValue
import proofs.«140535_j8942121910817_2_alg».proof.Proof.Spec

noncomputable section

open scoped BigOperators

namespace Cert.KernelIdeal.Tile

open Cert.KernelIdeal Cert.KernelIdeal.Gen Idealize.ShloMosaic Idealize.ShloMosaic.TcCoe Idealize.SL.Sem
open Idealize.ShloMosaic.Pipeline (Dat)
open Idealize.ShloMosaic.ValueIdx DynFilter

variable (m : (ℓ : Loc nD τ sig) → Buf (Elt Ideal) ℓ) (ρ : Dev nD → PrngReg)

/-! ## The grid: which image and which row-tile a point works on -/

theorem point_lt (t : Fin cfg0.N) : t.val < 136 := lt_of_lt_of_eq t.isLt (show cfg0.N = 136 from N_0)

/-- The printed index maps and the row-tile coordinate, decided once over the 136 points. -/
theorem idx_facts : ∀ t : Fin cfg0.N,
    win0_0.index t (0 : Fin 4) = t.val / 17 ∧ win0_0.index t (1 : Fin 4) = 0
    ∧ win0_0.index t (2 : Fin 4) = 0 ∧ win0_0.index t (3 : Fin 4) = 0
    ∧ win0_1.index t (0 : Fin 4) = t.val / 17 ∧ win0_1.index t (1 : Fin 4) = 0
    ∧ win0_1.index t (2 : Fin 4) = t.val % 17 ∧ win0_1.index t (3 : Fin 4) = 0
    ∧ win0_2.index t (0 : Fin 4) = t.val / 17 ∧ win0_2.index t (1 : Fin 4) = 0
    ∧ win0_2.index t (2 : Fin 4) = t.val % 17 ∧ win0_2.index t (3 : Fin 4) = 0
    ∧ ((grid0.coords t) (1 : Fin 2)).val = t.val % 17 :=
  (by decide +kernel : ∀ t : Fin grid0.N, _)

/-! ## Blocks read at coordinates -/

/-- The image block of point `t` is image `t / 17`. -/
theorem img_block (c : Dev nD) (t : Fin cfg0.N) (c' : Fin 3) (p : Fin 544) (q : Fin 960) :
    iblk m c 0 t (ix4 (0 : Fin 1) c' p q)
      = (m ((c : Thread nD τ).loc main_arg0)) (ix4 (⟨t.val / 17, by have := point_lt t; omega⟩ : Fin 8) c' p q) := by
  show V m c main_arg0 (((cfg0.win 0).blk t).view.emb (ix4 (0 : Fin 1) c' p q)) = _
  refine congrArg (m ((c : Thread nD τ).loc main_arg0)) (funext fun a => Fin.ext ?_)
  obtain ⟨e0, e1, e2, e3, -⟩ := idx_facts t
  match a with
  | ⟨0, _⟩ => show win0_0.index t (0 : Fin 4) * 1 + 1 * 0 = t.val / 17; omega
  | ⟨1, _⟩ => show win0_0.index t (1 : Fin 4) * 3 + 1 * c'.val = c'.val; omega
  | ⟨2, _⟩ => show win0_0.index t (2 : Fin 4) * 544 + 1 * p.val = p.val; omega
  | ⟨3, _⟩ => show win0_0.index t (3 : Fin 4) * 960 + 1 * q.val = q.val; omega

/-- The filter block of point `t` is rows 32·(t % 17) … of the filters of image `t / 17`. -/
theorem flt_block (c : Dev nD) (t : Fin cfg0.N) (k : Fin 27) (r : Fin 32) (w : Fin 960) :
    iblk m c 1 t (ix4 (0 : Fin 1) k r w)
      = (m ((c : Thread nD τ).loc main_arg1)) (ix4 (⟨t.val / 17, by have := point_lt t; omega⟩ : Fin 8) k
          (⟨32 * (t.val % 17) + r.val, by omega⟩ : Fin 544) w) := by
  show V m c main_arg1 (((cfg0.win 1).blk t).view.emb (ix4 (0 : Fin 1) k r w)) = _
  refine congrArg (m ((c : Thread nD τ).loc main_arg1)) (funext fun a => Fin.ext ?_)
  obtain ⟨-, -, -, -, e0, e1, e2, e3, -⟩ := idx_facts t
  match a with
  | ⟨0, _⟩ => show win0_1.index t (0 : Fin 4) * 1 + 1 * 0 = t.val / 17; omega
  | ⟨1, _⟩ => show win0_1.index t (1 : Fin 4) * 27 + 1 * k.val = k.val; omega
  | ⟨2, _⟩ => show win0_1.index t (2 : Fin 4) * 32 + 1 * r.val = 32 * (t.val % 17) + r.val; omega
  | ⟨3, _⟩ => show win0_1.index t (3 : Fin 4) * 960 + 1 * w.val = w.val; omega

/-- The halo window of point `t` is rows 32·(t % 17) … + 33 of the scratch. -/
theorem halo_apply (t : Fin cfg0.N) (S : FVec Ideal S3x546x962 .f32) (c' : Fin 3) (a : Fin 34) (q : Fin 962) :
    halo (F := Ideal) (grid0.coords t) S (ix3 c' a q)
      = S (ix3 c' (⟨32 * (t.val % 17) + a.val, by omega⟩ : Fin 546) q) := by
  show S ((Rect.unit (s := S3x546x962) (k0_off1 (grid0.coords t)) S3x34x962.size (k0_off1_inb (grid0.coords t))).idx
    (ix3 c' a q)) = _
  refine congrArg S (funext fun d => Fin.ext ?_)
  have hoff := k0_off1_eq (grid0.coords t)
  have hco : ((grid0.coords t) (1 : Fin 2)).val = t.val % 17 := (idx_facts t).2.2.2.2.2.2.2.2.2.2.2.2
  match d with
  | ⟨0, _⟩ =>
    show k0_off1 (grid0.coords t) (0 : Fin 3) + 1 * c'.val = c'.val
    rw [hoff]; show 0 + 1 * c'.val = c'.val; omega
  | ⟨1, _⟩ =>
    show k0_off1 (grid0.coords t) (1 : Fin 3) + 1 * a.val = 32 * (t.val % 17) + a.val
    rw [hoff]; show 32 * ((grid0.coords t) (1 : Fin 2)).val + 1 * a.val = 32 * (t.val % 17) + a.val
    rw [hco]; omega
  | ⟨2, _⟩ =>
    show k0_off1 (grid0.coords t) (2 : Fin 3) + 1 * q.val = q.val
    rw [hoff]; show 0 + 1 * q.val = q.val; omega

/-! ## The scratch after each point -/

/-- After point `n` the scratch holds image `n / 17` ringed by zeros. -/
theorem scratch_after (c : Dev nD) : ∀ (n : ℕ) (hn : n < cfg0.N) (c' : Fin 3) (p : Fin 546) (q : Fin 962),
    (outsAt0 m c n hn).2 (ix3 c' p q)
      = padded (m ((c : Thread nD τ).loc main_arg0)) (⟨n / 17, by have := point_lt ⟨n, hn⟩; simp only at this; omega⟩ : Fin 8) c' p.val q.val
  | 0, hn, c', p, q => by
    rw [outsAt0_A m c ⟨0, hn⟩ (Nat.zero_mod _) (Nat.zero_mod _)]
    dsimp only
    unfold sout0_A_0
    by_cases h : (1 ≤ p.val ∧ p.val ≤ 544) ∧ (1 ≤ q.val ∧ q.val ≤ 960)
    · rw [padded_inside _ _ _ _ _ h.1 h.2]
      exact (sout_A_inside c' p q c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _
        (iblk m c 0 ⟨0, hn⟩) (iblk m c 1 ⟨0, hn⟩) h.1 h.2).trans (img_block m c ⟨0, hn⟩ c' _ _)
    · rw [padded_ring _ _ _ _ _ h]
      exact (sout_A_ring c' p q c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _
        (iblk m c 0 ⟨0, hn⟩) (iblk m c 1 ⟨0, hn⟩) h).trans zero_word
  | n + 1, hn, c', p, q => by
    have hN : n + 1 < 136 := point_lt ⟨n + 1, hn⟩
    have h0 : ¬(⟨n + 1, hn⟩ : Fin cfg0.N).val % 136 = 0 := by dsimp only; omega
    by_cases h1 : (⟨n + 1, hn⟩ : Fin cfg0.N).val % 17 = 0
    · rw [outsAt0_C m c ⟨n + 1, hn⟩ h0 h1]
      dsimp only
      by_cases h : (1 ≤ p.val ∧ p.val ≤ 544) ∧ (1 ≤ q.val ∧ q.val ≤ 960)
      · rw [padded_inside _ _ _ _ _ h.1 h.2]
        exact (sout_C_inside c' p q c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _
          (iblk m c 0 ⟨n + 1, hn⟩) (iblk m c 1 ⟨n + 1, hn⟩) (outsAt0 m c n (Nat.lt_of_succ_lt hn)).2 h.1 h.2).trans
          (img_block m c ⟨n + 1, hn⟩ c' _ _)
      · rw [padded_ring _ _ _ _ _ h]
        exact (sout_C_ring c' p q c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _
          (iblk m c 0 ⟨n + 1, hn⟩) (iblk m c 1 ⟨n + 1, hn⟩) (outsAt0 m c n (Nat.lt_of_succ_lt hn)).2 h).trans
          ((scratch_after c n (Nat.lt_of_succ_lt hn) c' p q).trans (padded_ring _ _ _ _ _ h))
    · rw [outsAt0_B m c ⟨n + 1, hn⟩ h0 h1]
      dsimp only
      unfold sout0_B_0
      refine (scratch_after c n (Nat.lt_of_succ_lt hn) c' p q).trans ?_
      have e : n / 17 = (n + 1) / 17 := by dsimp only at h1; omega
      exact congrArg (fun b : Fin 8 => padded (m ((c : Thread nD τ).loc main_arg0)) b c' p.val q.val) (Fin.ext e)

/-! ## What each point writes back -/

/-- The result block a point leaves is the tile of the halo of the scratch as the point leaves it. -/
theorem out_eq_tile (c : Dev nD) (t : Fin cfg0.N) :
    (outsAt0 m c t.val t.isLt).1
      = tile (halo (grid0.coords t) (outsAt0 m c t.val t.isLt).2) (iblk m c 1 t) := by
  have hN := point_lt t
  by_cases h1 : t.val % 17 = 0
  · by_cases h0 : t.val % 136 = 0
    · rw [outsAt0_A m c t h0 h1]
      dsimp only
      unfold sout0_A_0
      exact out_A c (grid0.coords t) (ms0_0 t) (hs0_0 t) (ms0_1 t) (hs0_1 t) (ms0_2 t) (hs0_2 t) scM0_0 (Memref.isWhole_whole _) _ _ (iblk m c 0 t) (iblk m c 1 t)
    · rw [outsAt0_C m c t h0 h1]
      dsimp only
      exact out_C c (grid0.coords t) (ms0_0 t) (hs0_0 t) (ms0_1 t) (hs0_1 t) (ms0_2 t) (hs0_2 t) scM0_0 (Memref.isWhole_whole _) _ _ (iblk m c 0 t) (iblk m c 1 t)
        (outsAt0 m c (t.val - 1) (Nat.lt_of_le_of_lt (Nat.sub_le _ _) t.isLt)).2
  · have h0 : ¬t.val % 136 = 0 := by omega
    rw [outsAt0_B m c t h0 h1]
    dsimp only
    unfold sout0_B_0
    exact out_B c (grid0.coords t) (ms0_0 t) (hs0_0 t) (ms0_1 t) (hs0_1 t) (ms0_2 t) (hs0_2 t) scM0_0 (Memref.isWhole_whole _) _ _ (iblk m c 0 t) (iblk m c 1 t)
      (outsAt0 m c (t.val - 1) (Nat.lt_of_le_of_lt (Nat.sub_le _ _) t.isLt)).2

/-- Row `r`, column `w` of the block point `t` leaves is the specification at image `t / 17`, row 32·(t % 17) + r. -/
theorem out_apply (c : Dev nD) (t : Fin cfg0.N) (r : Fin 32) (w : Fin 960) :
    (outsAt0 m c t.val t.isLt).1 (ix4 (0 : Fin 1) (0 : Fin 1) r w)
      = G (m ((c : Thread nD τ).loc main_arg0)) (m ((c : Thread nD τ).loc main_arg1)) (ix4 (⟨t.val / 17, by have := point_lt t; omega⟩ : Fin 8) (0 : Fin 1)
          (⟨32 * (t.val % 17) + r.val, by omega⟩ : Fin 544) w) := by
  refine (congrFun (out_eq_tile m c t) _).trans
    ((tile_apply (halo (grid0.coords t) (outsAt0 m c t.val t.isLt).2) (iblk m c 1 t) r w).trans ?_)
  unfold G
  refine Finset.sum_congr rfl fun c' _ => Finset.sum_congr rfl fun i _ => Finset.sum_congr rfl fun l _ => ?_
  unfold term
  refine congrArg₂ (· * ·) ?_ (flt_block m c t (tap c' i l) r w)
  refine (halo_apply t _ c' _ _).trans ((scratch_after m c t.val t.isLt c' _ _).trans ?_)
  show padded _ _ c' (32 * (t.val % 17) + (r.val + i.val)) (w.val + l.val)
    = padded _ _ c' (32 * (t.val % 17) + r.val + i.val) (w.val + l.val)
  rw [Nat.add_assoc]

/-- What point `t` writes back is block `t` of the specification. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [Cert.KernelIdeal.Value.flushed2]
  funext y
  obtain ⟨u, v, r, w, rfl⟩ : ∃ (u : Fin 1) (v : Fin 1) (r : Fin 32) (w : Fin 960), y = ix4 u v r w :=
    ⟨y 0, y 1, y 2, y 3, eq_ix4 y⟩
  obtain rfl : u = 0 := Subsingleton.elim _ _
  obtain rfl : v = 0 := Subsingleton.elim _ _
  show (outsAt0 m c t.val t.isLt).1 (ix4 (0 : Fin 1) (0 : Fin 1) r w)
    = G (m ((c : Thread nD τ).loc main_arg0)) (m ((c : Thread nD τ).loc main_arg1)) (((cfg0.win 2).blk t).view.emb (ix4 (0 : Fin 1) (0 : Fin 1) r w))
  refine (out_apply m c t r w).trans (congrArg (G (m ((c : Thread nD τ).loc main_arg0)) (m ((c : Thread nD τ).loc main_arg1))) (funext fun a => Fin.ext ?_))
  obtain ⟨-, -, -, -, -, -, -, -, e0, e1, e2, e3, -⟩ := idx_facts t
  match a with
  | ⟨0, _⟩ => show t.val / 17 = win0_2.index t (0 : Fin 4) * 1 + 1 * 0; omega
  | ⟨1, _⟩ => show 0 = win0_2.index t (1 : Fin 4) * 1 + 1 * 0; omega
  | ⟨2, _⟩ => show 32 * (t.val % 17) + r.val = win0_2.index t (2 : Fin 4) * 32 + 1 * r.val; omega
  | ⟨3, _⟩ => show w.val = win0_2.index t (3 : Fin 4) * 960 + 1 * w.val; omega

/-! ## The blocks tile the result array -/

/-- An index of the array is in point `t`'s block iff each coordinate is in the block's range on its axis. -/
theorem mem_blk (t : Fin cfg0.N) (i : S8x1x544x960.Idx) :
    i ∈ ((cfg0.win 2).blk t).view.set ↔ ∀ a : Fin 4, win0_2.index t a * S1x1x32x960.size a ≤ (i a).val
      ∧ (i a).val < win0_2.index t a * S1x1x32x960.size a + S1x1x32x960.size a := by
  show i ∈ ((View.whole main_v0).slice (win0_2.rect t)).set ↔ _
  rw [View.set_slice_whole, Rect.mem_set_unit]
  exact Iff.rfl

/-- Every index of the result array lies in the block of the point for its image and its row-tile. -/
theorem cover (i : S8x1x544x960.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 544 := (i 2).isLt
  have h3 : (i 3).val < 960 := (i 3).isLt
  have hlt : 17 * (i 0).val + (i 2).val / 32 < cfg0.N := by
    rw [show cfg0.N = 136 from N_0]; omega
  obtain ⟨-, -, -, -, -, -, -, -, e0, e1, e2, e3, -⟩ := idx_facts ⟨17 * (i 0).val + (i 2).val / 32, hlt⟩
  refine ⟨⟨17 * (i 0).val + (i 2).val / 32, hlt⟩, flush0_2 _, ?_⟩
  rw [mem_blk]
  intro a
  dsimp only at e0 e1 e2 e3
  match a with
  | ⟨0, _⟩ =>
    show win0_2.index ⟨17 * (i 0).val + (i 2).val / 32, hlt⟩ (0 : Fin 4) * 1 ≤ (i 0).val
      ∧ (i 0).val < win0_2.index ⟨17 * (i 0).val + (i 2).val / 32, hlt⟩ (0 : Fin 4) * 1 + 1
    omega
  | ⟨1, _⟩ =>
    show win0_2.index ⟨17 * (i 0).val + (i 2).val / 32, hlt⟩ (1 : Fin 4) * 1 ≤ (i 1).val
      ∧ (i 1).val < win0_2.index ⟨17 * (i 0).val + (i 2).val / 32, hlt⟩ (1 : Fin 4) * 1 + 1
    omega
  | ⟨2, _⟩ =>
    show win0_2.index ⟨17 * (i 0).val + (i 2).val / 32, hlt⟩ (2 : Fin 4) * 32 ≤ (i 2).val
      ∧ (i 2).val < win0_2.index ⟨17 * (i 0).val + (i 2).val / 32, hlt⟩ (2 : Fin 4) * 32 + 32
    omega
  | ⟨3, _⟩ =>
    show win0_2.index ⟨17 * (i 0).val + (i 2).val / 32, hlt⟩ (3 : Fin 4) * 960 ≤ (i 3).val
      ∧ (i 3).val < win0_2.index ⟨17 * (i 0).val + (i 2).val / 32, hlt⟩ (3 : Fin 4) * 960 + 960
    omega

/-- The result array after the run is the specification of the two argument arrays. -/
theorem final (c : Dev nD) : (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1))) (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Tile

end
-- ==== Proof.LibPadRead.lean ====
/-
  A `stablehlo.pad` with no interior padding, read at an index. Such a pad lays its operand into the result at the low
  padding's offsets and fills the rest with the padding value: an index whose every coordinate is the low padding plus a
  coordinate of the operand reads the operand there (`pad_inside`); an index with some coordinate below the low padding,
  or at or past the low padding plus the operand's extent, reads the padding value (`pad_outside`). Any rank; the
  interior padding is given as a function with a proof that it is zero on every axis, so a literal `![0, …, 0]` fits.
-/
import Idealize.ShloMosaic.Lib.Pipeline.Value

noncomputable section

open Idealize.ShloMosaic

namespace PadRead

variable {α : Type} {s t u : Shape}

/-- Inside the operand's image: the operand at the index less the low padding. -/
theorem pad_inside (lo hi interior : Fin s.rank → Nat) (h0 : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    have := hk a; have hlt := (k a).isLt
    rw [h0 a, Nat.zero_add, Nat.div_one, Nat.mod_one]
    omega
  rw [dif_pos hin]
  refine congrArg x (funext fun a => Fin.ext ?_)
  show ((j (a.cast h.1)).val - lo a) / (interior a + 1) = (k a).val
  have := hk a
  rw [h0 a, Nat.zero_add, Nat.div_one]; omega

/-- Outside it (on some axis the coordinate is below the low padding, or at or past the low padding plus the operand's
    extent): the padding value. -/
theorem pad_outside (lo hi interior : Fin s.rank → Nat) (h0 : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  have := hin a
  rw [h0 a, Nat.zero_add, Nat.div_one] at this
  omega

end PadRead

end
-- ==== Proof.Reference.lean ====
/-
  The reference, index by index. It pads the images with one ring of zeros, takes the nine views of the padded array
  shifted by (i, l) ∈ {0,1,2}², stacks them on a new axis (view 3i + l at position 3i + l), folds that axis into the channel
  axis (channel 9c + n holds view n of image channel c), multiplies by the filters and sums the 27 channels from zero. So
  filter channel k meets image channel k / 9 shifted by ((k % 9) / 3, k % 3), and the sum over k regroups into the sum
  over channel, row offset and column offset: the specification.
-/
import proofs.«140535_j8942121910817_2_alg».proof.Proof.Gen.ReferenceIdeal.Read
import proofs.«140535_j8942121910817_2_alg».proof.Proof.LibPadRead
import proofs.«140535_j8942121910817_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx DynFilter PadRead

/-- The padding value, the integer zero converted, is the extended real zero. -/
theorem pad_word : val_main_call0_v0 (F := Ideal) (Shape.Idx.first h_S_) = (0 : EReal) := by
  show (((0#32 : BitVec 32).toInt : ℝ) : EReal) = 0
  have h : (0#32 : BitVec 32).toInt = 0 := by decide
  rw [h, Int.cast_zero, EReal.coe_zero]

/-- The padded array at batch `b`, channel `c`, row `p`, column `q` of the [546, 962] frame. -/
theorem frame_apply (x : FVec Ideal S8x3x544x960 .f32) (b : Fin 8) (c : Fin 3) (p : Fin 546) (q : Fin 962) :
    val_main_v0 (F := Ideal) x (ix4 b c p q) = padded x b c p.val q.val := by
  unfold val_main_v0
  have h0 : ∀ a : Fin 4, (![0, 0, 0, 0] : Fin 4 → ℕ) a = 0 := fun a => by fin_cases a <;> rfl
  by_cases h : (1 ≤ p.val ∧ p.val ≤ 544) ∧ (1 ≤ q.val ∧ q.val ≤ 960)
  · rw [padded_inside x b c p.val q.val h.1 h.2]
    refine pad_inside ![0, 0, 1, 1] ![0, 0, 1, 1] ![0, 0, 0, 0] h0 x _ _ h_S_ (ix4 b c p q)
      (ix4 b c (⟨p.val - 1, by omega⟩ : Fin 544) (⟨q.val - 1, by omega⟩ : Fin 960)) (fun a => ?_)
    match a with
    | ⟨0, _⟩ => show b.val = 0 + b.val; omega
    | ⟨1, _⟩ => show c.val = 0 + c.val; omega
    | ⟨2, _⟩ => show p.val = 1 + (p.val - 1); omega
    | ⟨3, _⟩ => show q.val = 1 + (q.val - 1); omega
  · rw [padded_ring x b c p.val q.val h, ← pad_word]
    by_cases hp : 1 ≤ p.val ∧ p.val ≤ 544
    · have hq : ¬(1 ≤ q.val ∧ q.val ≤ 960) := fun hq => h ⟨hp, hq⟩
      exact pad_outside ![0, 0, 1, 1] ![0, 0, 1, 1] ![0, 0, 0, 0] h0 x _ _ h_S_ (ix4 b c p q) (3 : Fin 4)
        (by show q.val < 1 ∨ 1 + 960 ≤ q.val; omega)
    · exact pad_outside ![0, 0, 1, 1] ![0, 0, 1, 1] ![0, 0, 0, 0] h0 x _ _ h_S_ (ix4 b c p q) (2 : Fin 4)
        (by show p.val < 1 ∨ 1 + 544 ≤ p.val; omega)

/-- Position 3i + l of the stack is the padded array shifted by (i, l). -/
theorem stack_apply (x : FVec Ideal S8x3x544x960 .f32) (b : Fin 8) (c : Fin 3) (i l : Fin 3) (r : Fin 544) (w : Fin 960) :
    val_main_v19 (F := Ideal) x (ix5 b c (⟨3 * i.val + l.val, by omega⟩ : Fin 9) r w)
      = padded x b c (r.val + i.val) (w.val + l.val) := by
  unfold val_main_v19
  match i with
  | ⟨0, _⟩ =>
    match l with
    | ⟨0, _⟩ =>
      refine (concatenate_apply_piece (t := S8x3x9x544x960) (2 : Fin 5) _ _ _ 0 ?_ S8x3x1x544x960
        (val_main_v10 (F := Ideal) x) ?_ rfl 0 ?_ (ix5 b c (0 : Fin 1) r w) (fun a ha => ?_) ?_).trans ?_
      · show 0 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 0 + 0 = 3 * 0 + 0; omega
      · rw [val_main_v10_apply, val_main_v1_apply]
        refine (congrArg (val_main_v0 (F := Ideal) x) (funext fun a => Fin.ext ?_)).trans
          (frame_apply x b c (⟨r.val + 0, by omega⟩ : Fin 546) (⟨w.val + 0, by omega⟩ : Fin 962))
        match a with
        | ⟨0, _⟩ => rfl
        | ⟨1, _⟩ => rfl
        | ⟨2, _⟩ => show r.val = r.val + 0; omega
        | ⟨3, _⟩ => show w.val = w.val + 0; omega
    | ⟨1, _⟩ =>
      refine (concatenate_apply_piece (t := S8x3x9x544x960) (2 : Fin 5) _ _ _ 1 ?_ S8x3x1x544x960
        (val_main_v11 (F := Ideal) x) ?_ rfl 1 ?_ (ix5 b c (0 : Fin 1) r w) (fun a ha => ?_) ?_).trans ?_
      · show 1 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 1 + 0 = 3 * 0 + 1; omega
      · rw [val_main_v11_apply, val_main_v2_apply]
        refine (congrArg (val_main_v0 (F := Ideal) x) (funext fun a => Fin.ext ?_)).trans
          (frame_apply x b c (⟨r.val + 0, by omega⟩ : Fin 546) (⟨w.val + 1, by omega⟩ : Fin 962))
        match a with
        | ⟨0, _⟩ => rfl
        | ⟨1, _⟩ => rfl
        | ⟨2, _⟩ => show r.val = r.val + 0; omega
        | ⟨3, _⟩ => show 1 + w.val = w.val + 1; omega
    | ⟨2, _⟩ =>
      refine (concatenate_apply_piece (t := S8x3x9x544x960) (2 : Fin 5) _ _ _ 2 ?_ S8x3x1x544x960
        (val_main_v12 (F := Ideal) x) ?_ rfl 2 ?_ (ix5 b c (0 : Fin 1) r w) (fun a ha => ?_) ?_).trans ?_
      · show 2 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 2 + 0 = 3 * 0 + 2; omega
      · rw [val_main_v12_apply, val_main_v3_apply]
        refine (congrArg (val_main_v0 (F := Ideal) x) (funext fun a => Fin.ext ?_)).trans
          (frame_apply x b c (⟨r.val + 0, by omega⟩ : Fin 546) (⟨w.val + 2, by omega⟩ : Fin 962))
        match a with
        | ⟨0, _⟩ => rfl
        | ⟨1, _⟩ => rfl
        | ⟨2, _⟩ => show r.val = r.val + 0; omega
        | ⟨3, _⟩ => show 2 + w.val = w.val + 2; omega
    | ⟨l + 3, hl⟩ => exact absurd hl (by omega)
  | ⟨1, _⟩ =>
    match l with
    | ⟨0, _⟩ =>
      refine (concatenate_apply_piece (t := S8x3x9x544x960) (2 : Fin 5) _ _ _ 3 ?_ S8x3x1x544x960
        (val_main_v13 (F := Ideal) x) ?_ rfl 3 ?_ (ix5 b c (0 : Fin 1) r w) (fun a ha => ?_) ?_).trans ?_
      · show 3 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 3 + 0 = 3 * 1 + 0; omega
      · rw [val_main_v13_apply, val_main_v4_apply]
        refine (congrArg (val_main_v0 (F := Ideal) x) (funext fun a => Fin.ext ?_)).trans
          (frame_apply x b c (⟨r.val + 1, by omega⟩ : Fin 546) (⟨w.val + 0, by omega⟩ : Fin 962))
        match a with
        | ⟨0, _⟩ => rfl
        | ⟨1, _⟩ => rfl
        | ⟨2, _⟩ => show 1 + r.val = r.val + 1; omega
        | ⟨3, _⟩ => show w.val = w.val + 0; omega
    | ⟨1, _⟩ =>
      refine (concatenate_apply_piece (t := S8x3x9x544x960) (2 : Fin 5) _ _ _ 4 ?_ S8x3x1x544x960
        (val_main_v14 (F := Ideal) x) ?_ rfl 4 ?_ (ix5 b c (0 : Fin 1) r w) (fun a ha => ?_) ?_).trans ?_
      · show 4 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 4 + 0 = 3 * 1 + 1; omega
      · rw [val_main_v14_apply, val_main_v5_apply]
        refine (congrArg (val_main_v0 (F := Ideal) x) (funext fun a => Fin.ext ?_)).trans
          (frame_apply x b c (⟨r.val + 1, by omega⟩ : Fin 546) (⟨w.val + 1, by omega⟩ : Fin 962))
        match a with
        | ⟨0, _⟩ => rfl
        | ⟨1, _⟩ => rfl
        | ⟨2, _⟩ => show 1 + r.val = r.val + 1; omega
        | ⟨3, _⟩ => show 1 + w.val = w.val + 1; omega
    | ⟨2, _⟩ =>
      refine (concatenate_apply_piece (t := S8x3x9x544x960) (2 : Fin 5) _ _ _ 5 ?_ S8x3x1x544x960
        (val_main_v15 (F := Ideal) x) ?_ rfl 5 ?_ (ix5 b c (0 : Fin 1) r w) (fun a ha => ?_) ?_).trans ?_
      · show 5 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 5 + 0 = 3 * 1 + 2; omega
      · rw [val_main_v15_apply, val_main_v6_apply]
        refine (congrArg (val_main_v0 (F := Ideal) x) (funext fun a => Fin.ext ?_)).trans
          (frame_apply x b c (⟨r.val + 1, by omega⟩ : Fin 546) (⟨w.val + 2, by omega⟩ : Fin 962))
        match a with
        | ⟨0, _⟩ => rfl
        | ⟨1, _⟩ => rfl
        | ⟨2, _⟩ => show 1 + r.val = r.val + 1; omega
        | ⟨3, _⟩ => show 2 + w.val = w.val + 2; omega
    | ⟨l + 3, hl⟩ => exact absurd hl (by omega)
  | ⟨2, _⟩ =>
    match l with
    | ⟨0, _⟩ =>
      refine (concatenate_apply_piece (t := S8x3x9x544x960) (2 : Fin 5) _ _ _ 6 ?_ S8x3x1x544x960
        (val_main_v16 (F := Ideal) x) ?_ rfl 6 ?_ (ix5 b c (0 : Fin 1) r w) (fun a ha => ?_) ?_).trans ?_
      · show 6 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 6 + 0 = 3 * 2 + 0; omega
      · rw [val_main_v16_apply, val_main_v7_apply]
        refine (congrArg (val_main_v0 (F := Ideal) x) (funext fun a => Fin.ext ?_)).trans
          (frame_apply x b c (⟨r.val + 2, by omega⟩ : Fin 546) (⟨w.val + 0, by omega⟩ : Fin 962))
        match a with
        | ⟨0, _⟩ => rfl
        | ⟨1, _⟩ => rfl
        | ⟨2, _⟩ => show 2 + r.val = r.val + 2; omega
        | ⟨3, _⟩ => show w.val = w.val + 0; omega
    | ⟨1, _⟩ =>
      refine (concatenate_apply_piece (t := S8x3x9x544x960) (2 : Fin 5) _ _ _ 7 ?_ S8x3x1x544x960
        (val_main_v17 (F := Ideal) x) ?_ rfl 7 ?_ (ix5 b c (0 : Fin 1) r w) (fun a ha => ?_) ?_).trans ?_
      · show 7 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 7 + 0 = 3 * 2 + 1; omega
      · rw [val_main_v17_apply, val_main_v8_apply]
        refine (congrArg (val_main_v0 (F := Ideal) x) (funext fun a => Fin.ext ?_)).trans
          (frame_apply x b c (⟨r.val + 2, by omega⟩ : Fin 546) (⟨w.val + 1, by omega⟩ : Fin 962))
        match a with
        | ⟨0, _⟩ => rfl
        | ⟨1, _⟩ => rfl
        | ⟨2, _⟩ => show 2 + r.val = r.val + 2; omega
        | ⟨3, _⟩ => show 1 + w.val = w.val + 1; omega
    | ⟨2, _⟩ =>
      refine (concatenate_apply_piece (t := S8x3x9x544x960) (2 : Fin 5) _ _ _ 8 ?_ S8x3x1x544x960
        (val_main_v18 (F := Ideal) x) ?_ rfl 8 ?_ (ix5 b c (0 : Fin 1) r w) (fun a ha => ?_) ?_).trans ?_
      · show 8 < 9; omega
      · rfl
      · rfl
      · match a with
        | ⟨0, _⟩ => rfl
        | ⟨1, _⟩ => rfl
        | ⟨2, _⟩ => exact absurd rfl ha
        | ⟨3, _⟩ => rfl
        | ⟨4, _⟩ => rfl
      · show 8 + 0 = 3 * 2 + 2; omega
      · rw [val_main_v18_apply, val_main_v9_apply]
        refine (congrArg (val_main_v0 (F := Ideal) x) (funext fun a => Fin.ext ?_)).trans
          (frame_apply x b c (⟨r.val + 2, by omega⟩ : Fin 546) (⟨w.val + 2, by omega⟩ : Fin 962))
        match a with
        | ⟨0, _⟩ => rfl
        | ⟨1, _⟩ => rfl
        | ⟨2, _⟩ => show 2 + r.val = r.val + 2; omega
        | ⟨3, _⟩ => show 2 + w.val = w.val + 2; omega
    | ⟨l + 3, hl⟩ => exact absurd hl (by omega)
  | ⟨i + 3, hi⟩ => exact absurd hi (by omega)

/-- Filter channel `k` meets image channel k / 9 shifted by ((k % 9) / 3, k % 3). -/
theorem folded_apply (x : FVec Ideal S8x3x544x960 .f32) (b : Fin 8) (k : Fin 27) (r : Fin 544) (w : Fin 960) :
    val_main_v20 (F := Ideal) x (ix4 b k r w)
      = padded x b (⟨k.val / 9, by omega⟩ : Fin 3) (r.val + k.val % 9 / 3) (w.val + k.val % 9 % 3) := by
  rw [val_main_v20_apply]
  have e : idx_main_v20 (ix4 b k r w) = ix5 b (⟨k.val / 9, by omega⟩ : Fin 3)
      (⟨3 * (⟨k.val % 9 / 3, by omega⟩ : Fin 3).val + (⟨k.val % 9 % 3, by omega⟩ : Fin 3).val, by
        show 3 * (k.val % 9 / 3) + k.val % 9 % 3 < 9; omega⟩ : Fin 9) r w :=
    funext fun a => Fin.ext (by
      have hb := b.isLt; have hk := k.isLt; have hr := r.isLt; have hw := w.isLt
      match a with
      | ⟨0, _⟩ => show (((b.val * 27 + k.val) * 544 + r.val) * 960 + w.val) / 14100480 = b.val; omega
      | ⟨1, _⟩ => show (((b.val * 27 + k.val) * 544 + r.val) * 960 + w.val) / 4700160 % 3 = k.val / 9; omega
      | ⟨2, _⟩ =>
        show (((b.val * 27 + k.val) * 544 + r.val) * 960 + w.val) / 522240 % 9 = 3 * (k.val % 9 / 3) + k.val % 9 % 3
        omega
      | ⟨3, _⟩ => show (((b.val * 27 + k.val) * 544 + r.val) * 960 + w.val) / 960 % 544 = r.val; omega
      | ⟨4, _⟩ => show (((b.val * 27 + k.val) * 544 + r.val) * 960 + w.val) % 960 = w.val; omega)
  rw [e]
  exact stack_apply x b _ (⟨k.val % 9 / 3, by omega⟩ : Fin 3) (⟨k.val % 9 % 3, by omega⟩ : Fin 3) r w

/-- The reference's result is the specification. -/
theorem result_eq (x : FVec Ideal S8x3x544x960 .f32) (f : FVec Ideal S8x27x544x960 .f32) :
    val_main_v23 (F := Ideal) x f = G x f := by
  funext j
  obtain ⟨b, u, r, w, rfl⟩ : ∃ (b : Fin 8) (u : Fin 1) (r : Fin 544) (w : Fin 960), j = ix4 b u r w :=
    ⟨j 0, j 1, j 2, j 3, eq_ix4 j⟩
  rw [val_main_v23_apply, val_main_v22_apply, val_main_cst_apply]
  have hidx : ∀ k : Fin 27, idx_main_v22 (idx_main_v23 (ix4 b u r w)) k = ix4 b k r w := fun k =>
    funext fun a => Fin.ext (by
      match a with
      | ⟨0, _⟩ => rfl
      | ⟨1, _⟩ => rfl
      | ⟨2, _⟩ => rfl
      | ⟨3, _⟩ => rfl)
  have hsum : ∑ k : Fin 27, val_main_v21 (F := Ideal) x f (idx_main_v22 (idx_main_v23 (ix4 b u r w)) k)
      = ∑ k : Fin 27, padded x b (⟨k.val / 9, by omega⟩ : Fin 3) (r.val + k.val % 9 / 3) (w.val + k.val % 9 % 3)
          * f (ix4 b k r w) :=
    Finset.sum_congr rfl fun k _ => by
      rw [hidx k, val_main_v21_apply, folded_apply]; rfl
  rw [hsum]
  show Ideal.ofBits .f32 0x00000000#32 + _ = _
  rw [Ideal.ofBits_zero_f32, zero_add,
    sum_channels (fun k : Fin 27 => padded x b (⟨k.val / 9, by omega⟩ : Fin 3) (r.val + k.val % 9 / 3) (w.val + k.val % 9 % 3)
      * f (ix4 b k r w))]
  refine Finset.sum_congr rfl fun c _ => Finset.sum_congr rfl fun i _ => Finset.sum_congr rfl fun l _ => ?_
  have hc := c.isLt; have hi := i.isLt; have hl := l.isLt
  show padded x b (⟨(9 * c.val + 3 * i.val + l.val) / 9, _⟩ : Fin 3) (r.val + (9 * c.val + 3 * i.val + l.val) % 9 / 3)
      (w.val + (9 * c.val + 3 * i.val + l.val) % 9 % 3) * f (ix4 b (tap c i l) r w)
    = padded x b c (r.val + i.val) (w.val + l.val) * f (ix4 b (tap c i l) r w)
  have e1 : (⟨(9 * c.val + 3 * i.val + l.val) / 9, by omega⟩ : Fin 3) = c := Fin.ext (by show (9 * c.val + 3 * i.val + l.val) / 9 = c.val; omega)
  have e2 : (9 * c.val + 3 * i.val + l.val) % 9 / 3 = i.val := by omega
  have e3 : (9 * c.val + 3 * i.val + l.val) % 9 % 3 = l.val := by omega
  rw [e1, e2, e3]

end Cert.ReferenceIdeal.RefValue

end
-- ==== Proof.lean ====
/-
  A per-pixel 3×3 filter over three image channels: for images `x` [8, 3, 544, 960] and filters `f` [8, 27, 544, 960],

      out[b, 0, r, w] = Σ_c Σ_i Σ_l  P[b, c, r + i, w + l] · f[b, 9c + 3i + l, r, w],

  with `P` the image ringed by one row and column of zeros (Proof/Spec.lean). The kernel walks the grid of 8 images ×
  17 row-tiles of 32 rows; it keeps the zero-ringed current image in a scratch frame carried from point to point
  (cleared once at the very first point, the interior overwritten at the first row-tile of each image) and adds, from
  zero, the 27 products of a shifted halo window with a filter channel, offsets outermost (Proof/TileValue.lean for the
  sum, Proof/KernelValue.lean for the scratch, by induction on the grid point). The reference pads, stacks the nine
  shifted views, folds them into the channel axis, multiplies and sums the 27 channels (Proof/Reference.lean). Both are
  the triple sum above: the two differ only in the order and grouping of the additions, and addition on the extended
  reals is commutative and associative without any finiteness, so the precondition is never opened. The ideal pass
  rewrote nothing, so the idealized kernel is the kernel's own text and nothing is owed for it.
-/
import proofs.«140535_j8942121910817_2_alg».proof.Defs
import proofs.«140535_j8942121910817_2_alg».proof.Proof.Gen.Kernel
import proofs.«140535_j8942121910817_2_alg».proof.Proof.Gen.Kernel.Skeleton
import proofs.«140535_j8942121910817_2_alg».proof.Proof.Gen.Kernel.Launch
import proofs.«140535_j8942121910817_2_alg».proof.Proof.Gen.Kernel.Points
import proofs.«140535_j8942121910817_2_alg».proof.Proof.Gen.Kernel.Frame
import proofs.«140535_j8942121910817_2_alg».proof.Proof.Gen.KernelIdeal
import proofs.«140535_j8942121910817_2_alg».proof.Proof.Gen.KernelIdeal.Skeleton
import proofs.«140535_j8942121910817_2_alg».proof.Proof.Gen.KernelIdeal.Launch
import proofs.«140535_j8942121910817_2_alg».proof.Proof.Gen.KernelIdeal.Points
import proofs.«140535_j8942121910817_2_alg».proof.Proof.Gen.KernelIdeal.Frame
import proofs.«140535_j8942121910817_2_alg».proof.Proof.Gen.ReferenceIdeal
import proofs.«140535_j8942121910817_2_alg».proof.Proof.Gen.Pre_finite_inputs
import proofs.«140535_j8942121910817_2_alg».proof.Proof.Gen.KernelIdeal.Value
import proofs.«140535_j8942121910817_2_alg».proof.Proof.Gen.ReferenceIdeal.Run
import proofs.«140535_j8942121910817_2_alg».proof.Proof.Gen.ReferenceIdeal.Read
import Idealize.ShloMosaic.Adequacy
import Idealize.ShloMosaic.Init
import proofs.«140535_j8942121910817_2_alg».proof.Proof.KernelValue
import proofs.«140535_j8942121910817_2_alg».proof.Proof.Reference

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- Over the extended reals both programs end with the triple sum of the same two argument arrays. -/
theorem algebraic : Cert.algebraic_KernelIdeal_ReferenceIdeal := by
  intro m ρ m' ρ' _ hagree
  refine ⟨fun c => DynFilter.G (m ((c : Thread Cert.KernelIdeal.nD Cert.KernelIdeal.τ).loc Cert.KernelIdeal.main_arg0))
    (m ((c : Thread Cert.KernelIdeal.nD Cert.KernelIdeal.τ).loc Cert.KernelIdeal.main_arg1)),
    Cert.KernelIdeal.Tile.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
